-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x224x7x512 : Shape := ⟨4, ![16, 224, 7, 512]⟩
abbrev S16x32x4 : Shape := ⟨3, ![16, 32, 4]⟩
abbrev S512x256 : Shape := ⟨2, ![512, 256]⟩
abbrev S256 : Shape := ⟨1, ![256]⟩
abbrev S401408x64 : Shape := ⟨2, ![401408, 64]⟩
abbrev S64 : Shape := ⟨1, ![64]⟩
abbrev S401408x128 : Shape := ⟨2, ![401408, 128]⟩
abbrev S128 : Shape := ⟨1, ![128]⟩
abbrev S_ : Shape := ⟨0, ![]⟩

class Facts : Prop where
  bcast_S_S16x224x7x512 : S_.BroadcastsInDim S16x224x7x512 (![] : Fin 0 → Fin S16x224x7x512.rank)
  reducesTo_S16x224x7x512_S_d0_1_2_3 : S16x224x7x512.ReducesTo [0, 1, 2, 3] S_
  h_S_ : 0 < S_.numel
  bcast_S_S16x32x4 : S_.BroadcastsInDim S16x32x4 (![] : Fin 0 → Fin S16x32x4.rank)
  reducesTo_S16x32x4_S_d0_1_2 : S16x32x4.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S401408x64 : S_.BroadcastsInDim S401408x64 (![] : Fin 0 → Fin S401408x64.rank)
  reducesTo_S401408x64_S_d0_1 : S401408x64.ReducesTo [0, 1] S_
  bcast_S_S64 : S_.BroadcastsInDim S64 (![] : Fin 0 → Fin S64.rank)
  reducesTo_S64_S_d0 : S64.ReducesTo [0] S_
  bcast_S_S401408x128 : S_.BroadcastsInDim S401408x128 (![] : Fin 0 → Fin S401408x128.rank)
  reducesTo_S401408x128_S_d0_1 : S401408x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S401408x64 .f32) (main_arg5 : FVec F S64 .f32) (main_arg6 : FVec F S401408x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S401408x64 .f32 := Host.absf main_arg4
  let main_cst_6 : FVec F S_ .f32 := constant S_ .f32 0x7F800000#32
  let main_v20 : FVec F S401408x64 .f32 := broadcastInDim S401408x64 ![] bcast_S_S401408x64 main_cst_6
  let main_v21 : IVec S401408x64 1 := cmpf .olt main_v19 main_v20
  let main_c_7 : IVec S_ 1 := constantI S_ 1 1#1
  let main_v22 : IVec S_ 1 := (fun x v => Host.reduce IntOp.andi x v reducesTo_S401408x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S401408x128 .f32 := Host.absf main_arg6
  let main_cst_10 : FVec F S_ .f32 := constant S_ .f32 0x7F800000#32
  let main_v30 : FVec F S401408x128 .f32 := broadcastInDim S401408x128 ![] bcast_S_S401408x128 main_cst_10
  let main_v31 : IVec S401408x128 1 := cmpf .olt main_v29 main_v30
  let main_c_11 : IVec S_ 1 := constantI S_ 1 1#1
  let main_v32 : IVec S_ 1 := (fun x v => Host.reduce IntOp.andi x v reducesTo_S401408x128_S_d0_1 h_S_) main_v31 main_c_11
  let main_v33 : IVec S_ 1 := andi main_v28 main_v32
  fn_part2 (F := F) main_arg7 main_v33

def fn {F : FTy → Type} [FloatOps F] (main_arg0 : FVec F S16x224x7x512 .f32) (main_arg1 : FVec F S16x32x4 .f32) (main_arg2 : FVec F S512x256 .f32) (main_arg3 : FVec F S256 .f32) (main_arg4 : FVec F S401408x64 .f32) (main_arg5 : FVec F S64 .f32) (main_arg6 : FVec F S401408x128 .f32) (main_arg7 : FVec F S128 .f32) : IVec S_ 1 :=
  let main_v0 : FVec F S16x224x7x512 .f32 := Host.absf main_arg0
  let main_cst : FVec F S_ .f32 := constant S_ .f32 0x7F800000#32
  let main_v1 : FVec F S16x224x7x512 .f32 := broadcastInDim S16x224x7x512 ![] bcast_S_S16x224x7x512 main_cst
  let main_v2 : IVec S16x224x7x512 1 := cmpf .olt main_v0 main_v1
  let main_c : IVec S_ 1 := constantI S_ 1 1#1
  let main_v3 : IVec S_ 1 := (fun x v => Host.reduce IntOp.andi x v reducesTo_S16x224x7x512_S_d0_1_2_3 h_S_) main_v2 main_c
  let main_v4 : FVec F S16x32x4 .f32 := Host.absf main_arg1
  let main_cst_0 : FVec F S_ .f32 := constant S_ .f32 0x7F800000#32
  let main_v5 : FVec F S16x32x4 .f32 := broadcastInDim S16x32x4 ![] bcast_S_S16x32x4 main_cst_0
  let main_v6 : IVec S16x32x4 1 := cmpf .olt main_v4 main_v5
  let main_c_1 : IVec S_ 1 := constantI S_ 1 1#1
  let main_v7 : IVec S_ 1 := (fun x v => Host.reduce IntOp.andi x v reducesTo_S16x32x4_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S16x224x7x512 : Shape := ⟨4, ![16, 224, 7, 512]⟩
abbrev S16x32x4 : Shape := ⟨3, ![16, 32, 4]⟩
abbrev S512x256 : Shape := ⟨2, ![512, 256]⟩
abbrev S256 : Shape := ⟨1, ![256]⟩
abbrev S401408x64 : Shape := ⟨2, ![401408, 64]⟩
abbrev S64 : Shape := ⟨1, ![64]⟩
abbrev S401408x128 : Shape := ⟨2, ![401408, 128]⟩
abbrev S128 : Shape := ⟨1, ![128]⟩
abbrev S25088x512 : Shape := ⟨2, ![25088, 512]⟩
abbrev S25088x256 : Shape := ⟨2, ![25088, 256]⟩
abbrev S1792x512 : Shape := ⟨2, ![1792, 512]⟩
abbrev S1792x256 : Shape := ⟨2, ![1792, 256]⟩
abbrev S1x256 : Shape := ⟨2, ![1, 256]⟩
abbrev S16x401408 : Shape := ⟨2, ![16, 401408]⟩
abbrev S2x16x64 : Shape := ⟨3, ![2, 16, 64]⟩
abbrev S2x16x128 : Shape := ⟨3, ![2, 16, 128]⟩
abbrev S16x12544 : Shape := ⟨2, ![16, 12544]⟩
abbrev S12544x64 : Shape := ⟨2, ![12544, 64]⟩
abbrev S12544x128 : Shape := ⟨2, ![12544, 128]⟩
abbrev S1x16x64 : Shape := ⟨3, ![1, 16, 64]⟩
abbrev S1x16x128 : Shape := ⟨3, ![1, 16, 128]⟩
abbrev S16x64 : Shape := ⟨2, ![16, 64]⟩
abbrev S16x128 : Shape := ⟨2, ![16, 128]⟩
abbrev S_ : Shape := ⟨0, ![]⟩
abbrev S1x64 : Shape := ⟨2, ![1, 64]⟩
abbrev S1x128 : Shape := ⟨2, ![1, 128]⟩
abbrev S16x32 : Shape := ⟨2, ![16, 32]⟩
abbrev S1x16x32 : Shape := ⟨3, ![1, 16, 32]⟩
abbrev S2x16x32 : Shape := ⟨3, ![2, 16, 32]⟩
abbrev S16x4x32 : Shape := ⟨3, ![16, 4, 32]⟩
abbrev S16x32x1 : Shape := ⟨3, ![16, 32, 1]⟩
abbrev S16x32x5 : Shape := ⟨3, ![16, 32, 5]⟩

abbrev nBuf : Space → Nat
  | .hbm => 102
  | .vmem => 16
  | .smem => 0
  | _ => 0

abbrev bufTy : (tb : Table) → Fin (tcTables nBuf tb) → BufTy
  | .hbm, ⟨0, _⟩ => ⟨S16x224x7x512, .f32⟩
  | .hbm, ⟨1, _⟩ => ⟨S16x32x4, .f32⟩
  | .hbm, ⟨2, _⟩ => ⟨S512x256, .f32⟩
  | .hbm, ⟨3, _⟩ => ⟨S256, .f32⟩
  | .hbm, ⟨4, _⟩ => ⟨S401408x64, .f32⟩
  | .hbm, ⟨5, _⟩ => ⟨S64, .f32⟩
  | .hbm, ⟨6, _⟩ => ⟨S401408x128, .f32⟩
  | .hbm, ⟨7, _⟩ => ⟨S128, .f32⟩
  | .hbm, ⟨8, _⟩ => ⟨S25088x512, .f32⟩
  | .hbm, ⟨9, _⟩ => ⟨S512x256, .bf16⟩
  | .hbm, ⟨10, _⟩ => ⟨S25088x256, .bf16⟩
  | .hbm, ⟨11, _⟩ => ⟨S16x401408, .bf16⟩
  | .hbm, ⟨12, _⟩ => ⟨S2x16x64, .f32⟩
  | .hbm, ⟨13, _⟩ => ⟨S2x16x128, .f32⟩
  | .hbm, ⟨14, _⟩ => ⟨S_, .f32⟩
  | .hbm, ⟨15, _⟩ => ⟨S16x64, .f32⟩
  | .hbm, ⟨16, _⟩ => ⟨S1x64, .f32⟩
  | .hbm, ⟨17, _⟩ => ⟨S16x64, .f32⟩
  | .hbm, ⟨18, _⟩ => ⟨S16x64, .f32⟩
  | .hbm, ⟨19, _⟩ => ⟨S_, .f32⟩
  | .hbm, ⟨20, _⟩ => ⟨S16x128, .f32⟩
  | .hbm, ⟨21, _⟩ => ⟨S1x128, .f32⟩
  | .hbm, ⟨22, _⟩ => ⟨S16x128, .f32⟩
  | .hbm, ⟨23, _⟩ => ⟨S16x128, .f32⟩
  | .hbm, ⟨24, _⟩ => ⟨S16x32, .f32⟩
  | .hbm, ⟨25, _⟩ => ⟨S16x32, .f32⟩
  | .hbm, ⟨26, _⟩ => ⟨S1x16x32, .f32⟩
  | .hbm, ⟨27, _⟩ => ⟨S1x16x32, .f32⟩
  | .hbm, ⟨28, _⟩ => ⟨S2x16x32, .f32⟩
  | .hbm, ⟨29, _⟩ => ⟨S_, .f32⟩
  | .hbm, ⟨30, _⟩ => ⟨S16x32, .f32⟩
  | .hbm, ⟨31, _⟩ => ⟨S_, .f32⟩
  | .hbm, ⟨32, _⟩ => ⟨S16x32, .f32⟩
  | .hbm, ⟨33, _⟩ => ⟨S16x32, .f32⟩
  | .hbm, ⟨34, _⟩ => ⟨S1x16x32, .f32⟩
  | .hbm, ⟨35, _⟩ => ⟨S2x16x32, .f32⟩
  | .hbm, ⟨36, _⟩ => ⟨S2x16x32, .f32⟩
  | .hbm, ⟨37, _⟩ => ⟨S2x16x32, .f32⟩
  | .hbm, ⟨38, _⟩ => ⟨S_, .f32⟩
  | .hbm, ⟨39, _⟩ => ⟨S16x32, .f32⟩
  | .hbm, ⟨40, _⟩ => ⟨S1x16x32, .f32⟩
  | .hbm, ⟨41, _⟩ => ⟨S2x16x32, .f32⟩
  | .hbm, ⟨42, _⟩ => ⟨S2x16x32, .f32⟩
  | .hbm, ⟨43, _⟩ => ⟨S1x16x32, .f32⟩
  | .hbm, ⟨44, _⟩ => ⟨S16x32, .f32⟩
  | .hbm, ⟨45, _⟩ => ⟨S_, .f32⟩
  | .hbm, ⟨46, _⟩ => ⟨S16x32x4, .f32⟩
  | .hbm, ⟨47, _⟩ => ⟨S16x32x4, .f32⟩
  | .hbm, ⟨48, _⟩ => ⟨S16x4x32, .f32⟩
  | .hbm, ⟨49, _⟩ => ⟨S16x32x4, .f32⟩
  | .hbm, ⟨50, _⟩ => ⟨S16x32x1, .f32⟩
  | .hbm, ⟨51, _⟩ => ⟨S16x32, .f32⟩
  | .hbm, ⟨52, _⟩ => ⟨S16x32x1, .f32⟩
  | .hbm, ⟨53, _⟩ => ⟨S16x32, .f32⟩
  | .hbm, ⟨54, _⟩ => ⟨S16x32x1, .f32⟩
  | .hbm, ⟨55, _⟩ => ⟨S16x32, .f32⟩
  | .hbm, ⟨56, _⟩ => ⟨S16x32, .f32⟩
  | .hbm, ⟨57, _⟩ => ⟨S16x32, .f32⟩
  | .hbm, ⟨58, _⟩ => ⟨S16x32x1, .f32⟩
  | .hbm, ⟨59, _⟩ => ⟨S16x32, .f32⟩
  | .hbm, ⟨60, _⟩ => ⟨S16x32x1, .f32⟩
  | .hbm, ⟨61, _⟩ => ⟨S16x32, .f32⟩
  | .hbm, ⟨62, _⟩ => ⟨S16x32x1, .f32⟩
  | .hbm, ⟨63, _⟩ => ⟨S16x32, .f32⟩
  | .hbm, ⟨64, _⟩ => ⟨S16x32, .f32⟩
  | .hbm, ⟨65, _⟩ => ⟨S16x32, .f32⟩
  | .hbm, ⟨66, _⟩ => ⟨S16x32x1, .f32⟩
  | .hbm, ⟨67, _⟩ => ⟨S16x32, .f32⟩
  | .hbm, ⟨68, _⟩ => ⟨S16x32x1, .f32⟩
  | .hbm, ⟨69, _⟩ => ⟨S16x32, .f32⟩
  | .hbm, ⟨70, _⟩ => ⟨S16x32x1, .f32⟩
  | .hbm, ⟨71, _⟩ => ⟨S16x32, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16x32, .f32⟩
  | .hbm, ⟨76, _⟩ => ⟨S16x32, .f32⟩
  | .hbm, ⟨77, _⟩ => ⟨S_, .f32⟩
  | .hbm, ⟨78, _⟩ => ⟨S16x32, .f32⟩
  | .hbm, ⟨79, _⟩ => ⟨S16x32, .f32⟩
  | .hbm, ⟨80, _⟩ => ⟨S16x32, .f32⟩
  | .hbm, ⟨81, _⟩ => ⟨S16x32, .f32⟩
  | .hbm, ⟨82, _⟩ => ⟨S16x32x1, .f32⟩
  | .hbm, ⟨83, _⟩ => ⟨S16x32, .f32⟩
  | .hbm, ⟨84, _⟩ => ⟨S16x32x1, .f32⟩
  | .hbm, ⟨85, _⟩ => ⟨S16x32, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16x32, .f32⟩
  | .hbm, ⟨90, _⟩ => ⟨S16x32, .f32⟩
  | .hbm, ⟨91, _⟩ => ⟨S_, .f32⟩
  | .hbm, ⟨92, _⟩ => ⟨S16x32, .f32⟩
  | .hbm, ⟨93, _⟩ => ⟨S16x32, .f32⟩
  | .hbm, ⟨94, _⟩ => ⟨S16x32, .f32⟩
  | .hbm, ⟨95, _⟩ => ⟨S16x32, .f32⟩
  | .hbm, ⟨96, _⟩ => ⟨S16x32x1, .f32⟩
  | .hbm, ⟨97, _⟩ => ⟨S16x32x1, .f32⟩
  | .hbm, ⟨98, _⟩ => ⟨S16x32x1, .f32⟩
  | .hbm, ⟨99, _⟩ => ⟨S16x32x1, .f32⟩
  | .hbm, ⟨100, _⟩ => ⟨S16x32x1, .f32⟩
  | .hbm, ⟨101, _⟩ => ⟨S16x32x5, .f32⟩
  | .local _ .vmem, ⟨0, _⟩ => ⟨S1792x512, .f32⟩
  | .local _ .vmem, ⟨1, _⟩ => ⟨S1792x512, .f32⟩
  | .local _ .vmem, ⟨2, _⟩ => ⟨S512x256, .bf16⟩
  | .local _ .vmem, ⟨3, _⟩ => ⟨S256, .f32⟩
  | .local _ .vmem, ⟨4, _⟩ => ⟨S1792x256, .bf16⟩
  | .local _ .vmem, ⟨5, _⟩ => ⟨S1792x256, .bf16⟩
  | .local _ .vmem, ⟨6, _⟩ => ⟨S16x12544, .bf16⟩
  | .local _ .vmem, ⟨7, _⟩ => ⟨S16x12544, .bf16⟩
  | .local _ .vmem, ⟨8, _⟩ => ⟨S12544x64, .f32⟩
  | .local _ .vmem, ⟨9, _⟩ => ⟨S12544x64, .f32⟩
  | .local _ .vmem, ⟨10, _⟩ => ⟨S12544x128, .f32⟩
  | .local _ .vmem, ⟨11, _⟩ => ⟨S12544x128, .f32⟩
  | .local _ .vmem, ⟨12, _⟩ => ⟨S1x16x64, .f32⟩
  | .local _ .vmem, ⟨13, _⟩ => ⟨S1x16x64, .f32⟩
  | .local _ .vmem, ⟨14, _⟩ => ⟨S1x16x128, .f32⟩
  | .local _ .vmem, ⟨15, _⟩ => ⟨S1x16x128, .f32⟩
  | _, _ => ⟨S16x224x7x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_cst_6 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_cst_8 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x12544 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S12544x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S12544x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S16x224x7x512_S25088x512 : S16x224x7x512.ShapeCasts S25088x512
  bitsLt_bf16_f32 : FTy.bits .bf16 < FTy.bits .f32
  inb_S1792x512_S1792x512_0_0 : ∀ a, (![0, 0] : Fin 2 → Nat) a + S1792x512.size a ≤ S1792x512.size a
  h_S1792x512 : 0 < S1792x512.numel
  shapeCasts_S1792x512_S1792x512 : S1792x512.ShapeCasts S1792x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1792x256 : S1x256.Broadcasts S1792x256
  inb_S1792x256_S1792x256_0_0 : ∀ a, (![0, 0] : Fin 2 → Nat) a + S1792x256.size a ≤ S1792x256.size a
  h_S1792x256 : 0 < S1792x256.numel
  packedbf16_S1792x256_S1792x256_0_0 : (Rect.unit (s := S1792x256) ![0, 0] S1792x256.size inb_S1792x256_S1792x256_0_0).PackedRows (EltTy.packing .bf16)
  shapeCasts_S25088x256_S16x401408 : S25088x256.ShapeCasts S16x401408
  inb_S16x12544_S16x12544_0_0 : ∀ a, (![0, 0] : Fin 2 → Nat) a + S16x12544.size a ≤ S16x12544.size a
  h_S16x12544 : 0 < S16x12544.numel
  shapeCasts_S16x12544_S16x12544 : S16x12544.ShapeCasts S16x12544
  inb_S12544x64_S12544x64_0_0 : ∀ a, (![0, 0] : Fin 2 → Nat) a + S12544x64.size a ≤ S12544x64.size a
  h_S12544x64 : 0 < S12544x64.numel
  inb_S12544x128_S12544x128_0_0 : ∀ a, (![0, 0] : Fin 2 → Nat) a + S12544x128.size a ≤ S12544x128.size a
  h_S12544x128 : 0 < S12544x128.numel
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  shapeCasts_S16x64_S1x16x64 : S16x64.ShapeCasts S1x16x64
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x64_S16x64_d0 : S2x16x64.ReducesTo [0] S16x64
  h_S_ : 0 < S_.numel
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  reducesTo_S2x16x128_S16x128_d0 : S2x16x128.ReducesTo [0] S16x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  slices_S16x64_S16x32_0_0 : S16x64.Slices ![0, 0] S16x32
  slices_S16x64_S16x32_0_32 : S16x64.Slices ![0, 32] S16x32
  bcast_S16x32_S1x16x32_1_2 : S16x32.BroadcastsInDim S1x16x32 (![1, 2] : Fin 2 → Fin S1x16x32.rank)
  concatenates_S1x16x32_S1x16x32_S2x16x32_d0 : Shape.Concatenates [S1x16x32, S1x16x32] S2x16x32 0
  reducesTo_S2x16x32_S16x32_d0 : S2x16x32.ReducesTo [0] S16x32
  bcast_S_S16x32 : S_.BroadcastsInDim S16x32 (![] : Fin 0 → Fin S16x32.rank)
  bcast_S1x16x32_S2x16x32_0_1_2 : S1x16x32.BroadcastsInDim S2x16x32 (![0, 1, 2] : Fin 3 → Fin S2x16x32.rank)
  slices_S2x16x32_S1x16x32_1_0_0 : S2x16x32.Slices ![1, 0, 0] S1x16x32
  shapeCasts_S1x16x32_S16x32 : S1x16x32.ShapeCasts S16x32
  bcast_S_S16x32x4 : S_.BroadcastsInDim S16x32x4 (![] : Fin 0 → Fin S16x32x4.rank)
  shapeCasts_S16x128_S16x4x32 : S16x128.ShapeCasts S16x4x32
  transposes_S16x4x32_S16x32x4_0_2_1 : S16x4x32.Transposes [0, 2, 1] S16x32x4
  slices_S16x32x4_S16x32x1_0_0_0 : S16x32x4.Slices ![0, 0, 0] S16x32x1
  shapeCasts_S16x32x1_S16x32 : S16x32x1.ShapeCasts S16x32
  slices_S16x32x4_S16x32x1_0_0_2 : S16x32x4.Slices ![0, 0, 2] S16x32x1
  slices_S16x32x4_S16x32x1_0_0_1 : S16x32x4.Slices ![0, 0, 1] S16x32x1
  slices_S16x32x4_S16x32x1_0_0_3 : S16x32x4.Slices ![0, 0, 3] S16x32x1
  bcast_S16x32_S16x32x1_0_1 : S16x32.BroadcastsInDim S16x32x1 (![0, 1] : Fin 2 → Fin S16x32x1.rank)
  concatenates_S16x32x1_S16x32x1_S16x32x1_S16x32x1_S16x32x1_S16x32x5_d2 : Shape.Concatenates [S16x32x1, S16x32x1, S16x32x1, S16x32x1, S16x32x1] S16x32x5 2
  dot_S1792x512_S512x256_S1792x256_1_0_0_1_n_n_wf : DotDims.WF S1792x512 S512x256 S1792x256 [1] [0] [0] [1] [] []
  dot_S16x12544_S12544x64_S16x64_1_0_0_1_n_n_wf : DotDims.WF S16x12544 S12544x64 S16x64 [1] [0] [0] [1] [] []
  dot_S16x12544_S12544x128_S16x128_1_0_0_1_n_n_wf : DotDims.WF S16x12544 S12544x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x512.size a ≤ S25088x512.size a
  hwx0_0 : ∀ i : grid0.Coords, EltTy.bits .f32 = 32 ∨ (Rect.block (s := S25088x512) S1792x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1792x256.size a ≤ S25088x256.size a
  hwx0_3 : ∀ i : grid0.Coords, EltTy.bits .bf16 = 32 ∨ (Rect.block (s := S25088x256) S1792x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x12544.size a ≤ S16x401408.size a
  hwx1_0 : ∀ i : grid1.Coords, EltTy.bits .bf16 = 32 ∨ (Rect.block (s := S16x401408) S16x12544.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12544x64.size a ≤ S401408x64.size a
  hwx1_1 : ∀ i : grid1.Coords, EltTy.bits .f32 = 32 ∨ (Rect.block (s := S401408x64) S12544x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12544x128.size a ≤ S401408x128.size a
  hwx1_2 : ∀ i : grid1.Coords, EltTy.bits .f32 = 32 ∨ (Rect.block (s := S401408x128) S12544x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x64.size a ≤ S2x16x64.size a
  hwx1_3 : ∀ i : grid1.Coords, EltTy.bits .f32 = 32 ∨ (Rect.block (s := S2x16x64) S1x16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x128.size a ≤ S2x16x128.size a
  hwx1_4 : ∀ i : grid1.Coords, EltTy.bits .f32 = 32 ∨ (Rect.block (s := S2x16x128) S1x16x128.size (cc1_transform_4 i) (hinb1_4 i)).WholeWords (EltTy.packing .f32)

variable [Facts₀]

def dot_S1792x512_S512x256_S1792x256_1_0_0_1_n_n : DotDims S1792x512 S512x256 S1792x256 where
  lhsContracting := [1]
  rhsContracting := [0]
  lhsNonContracting := [0]
  rhsNonContracting := [1]
  lhsBatch := []
  rhsBatch := []
  wf := dot_S1792x512_S512x256_S1792x256_1_0_0_1_n_n_wf
def dot_S16x12544_S12544x64_S16x64_1_0_0_1_n_n : DotDims S16x12544 S12544x64 S16x64 where
  lhsContracting := [1]
  rhsContracting := [0]
  lhsNonContracting := [0]
  rhsNonContracting := [1]
  lhsBatch := []
  rhsBatch := []
  wf := dot_S16x12544_S12544x64_S16x64_1_0_0_1_n_n_wf
def dot_S16x12544_S12544x128_S16x128_1_0_0_1_n_n : DotDims S16x12544 S12544x128 S16x128 where
  lhsContracting := [1]
  rhsContracting := [0]
  lhsNonContracting := [0]
  rhsNonContracting := [1]
  lhsBatch := []
  rhsBatch := []
  wf := dot_S16x12544_S12544x128_S16x128_1_0_0_1_n_n_wf

abbrev win0_0 : Pipeline.Window sig grid0 :=
  Pipeline.Window.ofSpec (Memref.whole main_v0) S1792x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1792x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S16x12544.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S12544x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S12544x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1x16x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1x16x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x224x7x512 : Shape := ⟨4, ![16, 224, 7, 512]⟩
abbrev S16x32x4 : Shape := ⟨3, ![16, 32, 4]⟩
abbrev S512x256 : Shape := ⟨2, ![512, 256]⟩
abbrev S256 : Shape := ⟨1, ![256]⟩
abbrev S401408x64 : Shape := ⟨2, ![401408, 64]⟩
abbrev S64 : Shape := ⟨1, ![64]⟩
abbrev S401408x128 : Shape := ⟨2, ![401408, 128]⟩
abbrev S128 : Shape := ⟨1, ![128]⟩
abbrev S16x224x7x256 : Shape := ⟨4, ![16, 224, 7, 256]⟩
abbrev S1x1x1x256 : Shape := ⟨4, ![1, 1, 1, 256]⟩
abbrev S_ : Shape := ⟨0, ![]⟩
abbrev S16x401408 : Shape := ⟨2, ![16, 401408]⟩
abbrev S16x64 : Shape := ⟨2, ![16, 64]⟩
abbrev S1x64 : Shape := ⟨2, ![1, 64]⟩
abbrev S16x128 : Shape := ⟨2, ![16, 128]⟩
abbrev S1x128 : Shape := ⟨2, ![1, 128]⟩
abbrev S16x32 : Shape := ⟨2, ![16, 32]⟩
abbrev S1x16x32 : Shape := ⟨3, ![1, 16, 32]⟩
abbrev S2x16x32 : Shape := ⟨3, ![2, 16, 32]⟩
abbrev S16x4x32 : Shape := ⟨3, ![16, 4, 32]⟩
abbrev S16x32x1 : Shape := ⟨3, ![16, 32, 1]⟩
abbrev S16x32x5 : Shape := ⟨3, ![16, 32, 5]⟩

abbrev nBuf : Space → Nat
  | .hbm => 102
  | .vmem => 0
  | .smem => 0
  | _ => 0

abbrev bufTy : (tb : Table) → Fin (tcTables nBuf tb) → BufTy
  | .hbm, ⟨0, _⟩ => ⟨S16x224x7x512, .f32⟩
  | .hbm, ⟨1, _⟩ => ⟨S16x32x4, .f32⟩
  | .hbm, ⟨2, _⟩ => ⟨S512x256, .f32⟩
  | .hbm, ⟨3, _⟩ => ⟨S256, .f32⟩
  | .hbm, ⟨4, _⟩ => ⟨S401408x64, .f32⟩
  | .hbm, ⟨5, _⟩ => ⟨S64, .f32⟩
  | .hbm, ⟨6, _⟩ => ⟨S401408x128, .f32⟩
  | .hbm, ⟨7, _⟩ => ⟨S128, .f32⟩
  | .hbm, ⟨8, _⟩ => ⟨S16x224x7x256, .f32⟩
  | .hbm, ⟨9, _⟩ => ⟨S1x1x1x256, .f32⟩
  | .hbm, ⟨10, _⟩ => ⟨S16x224x7x256, .f32⟩
  | .hbm, ⟨11, _⟩ => ⟨S16x224x7x256, .f32⟩
  | .hbm, ⟨12, _⟩ => ⟨S_, .f32⟩
  | .hbm, ⟨13, _⟩ => ⟨S16x224x7x256, .f32⟩
  | .hbm, ⟨14, _⟩ => ⟨S16x224x7x256, .f32⟩
  | .hbm, ⟨15, _⟩ => ⟨S16x401408, .f32⟩
  | .hbm, ⟨16, _⟩ => ⟨S16x64, .f32⟩
  | .hbm, ⟨17, _⟩ => ⟨S1x64, .f32⟩
  | .hbm, ⟨18, _⟩ => ⟨S16x64, .f32⟩
  | .hbm, ⟨19, _⟩ => ⟨S16x64, .f32⟩
  | .hbm, ⟨20, _⟩ => ⟨S16x128, .f32⟩
  | .hbm, ⟨21, _⟩ => ⟨S1x128, .f32⟩
  | .hbm, ⟨22, _⟩ => ⟨S16x128, .f32⟩
  | .hbm, ⟨23, _⟩ => ⟨S16x128, .f32⟩
  | .hbm, ⟨24, _⟩ => ⟨S16x32, .f32⟩
  | .hbm, ⟨25, _⟩ => ⟨S16x32, .f32⟩
  | .hbm, ⟨26, _⟩ => ⟨S1x16x32, .f32⟩
  | .hbm, ⟨27, _⟩ => ⟨S1x16x32, .f32⟩
  | .hbm, ⟨28, _⟩ => ⟨S2x16x32, .f32⟩
  | .hbm, ⟨29, _⟩ => ⟨S_, .f32⟩
  | .hbm, ⟨30, _⟩ => ⟨S16x32, .f32⟩
  | .hbm, ⟨31, _⟩ => ⟨S_, .f32⟩
  | .hbm, ⟨32, _⟩ => ⟨S16x32, .f32⟩
  | .hbm, ⟨33, _⟩ => ⟨S16x32, .f32⟩
  | .hbm, ⟨34, _⟩ => ⟨S1x16x32, .f32⟩
  | .hbm, ⟨35, _⟩ => ⟨S2x16x32, .f32⟩
  | .hbm, ⟨36, _⟩ => ⟨S2x16x32, .f32⟩
  | .hbm, ⟨37, _⟩ => ⟨S2x16x32, .f32⟩
  | .hbm, ⟨38, _⟩ => ⟨S_, .f32⟩
  | .hbm, ⟨39, _⟩ => ⟨S16x32, .f32⟩
  | .hbm, ⟨40, _⟩ => ⟨S1x16x32, .f32⟩
  | .hbm, ⟨41, _⟩ => ⟨S2x16x32, .f32⟩
  | .hbm, ⟨42, _⟩ => ⟨S2x16x32, .f32⟩
  | .hbm, ⟨43, _⟩ => ⟨S1x16x32, .f32⟩
  | .hbm, ⟨44, _⟩ => ⟨S16x32, .f32⟩
  | .hbm, ⟨45, _⟩ => ⟨S_, .f32⟩
  | .hbm, ⟨46, _⟩ => ⟨S16x32x4, .f32⟩
  | .hbm, ⟨47, _⟩ => ⟨S16x32x4, .f32⟩
  | .hbm, ⟨48, _⟩ => ⟨S16x4x32, .f32⟩
  | .hbm, ⟨49, _⟩ => ⟨S16x32x4, .f32⟩
  | .hbm, ⟨50, _⟩ => ⟨S16x32x1, .f32⟩
  | .hbm, ⟨51, _⟩ => ⟨S16x32, .f32⟩
  | .hbm, ⟨52, _⟩ => ⟨S16x32x1, .f32⟩
  | .hbm, ⟨53, _⟩ => ⟨S16x32, .f32⟩
  | .hbm, ⟨54, _⟩ => ⟨S16x32x1, .f32⟩
  | .hbm, ⟨55, _⟩ => ⟨S16x32, .f32⟩
  | .hbm, ⟨56, _⟩ => ⟨S16x32, .f32⟩
  | .hbm, ⟨57, _⟩ => ⟨S16x32, .f32⟩
  | .hbm, ⟨58, _⟩ => ⟨S16x32x1, .f32⟩
  | .hbm, ⟨59, _⟩ => ⟨S16x32, .f32⟩
  | .hbm, ⟨60, _⟩ => ⟨S16x32x1, .f32⟩
  | .hbm, ⟨61, _⟩ => ⟨S16x32, .f32⟩
  | .hbm, ⟨62, _⟩ => ⟨S16x32x1, .f32⟩
  | .hbm, ⟨63, _⟩ => ⟨S16x32, .f32⟩
  | .hbm, ⟨64, _⟩ => ⟨S16x32, .f32⟩
  | .hbm, ⟨65, _⟩ => ⟨S16x32, .f32⟩
  | .hbm, ⟨66, _⟩ => ⟨S16x32x1, .f32⟩
  | .hbm, ⟨67, _⟩ => ⟨S16x32, .f32⟩
  | .hbm, ⟨68, _⟩ => ⟨S16x32x1, .f32⟩
  | .hbm, ⟨69, _⟩ => ⟨S16x32, .f32⟩
  | .hbm, ⟨70, _⟩ => ⟨S16x32x1, .f32⟩
  | .hbm, ⟨71, _⟩ => ⟨S16x32, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16x32, .f32⟩
  | .hbm, ⟨76, _⟩ => ⟨S16x32, .f32⟩
  | .hbm, ⟨77, _⟩ => ⟨S_, .f32⟩
  | .hbm, ⟨78, _⟩ => ⟨S16x32, .f32⟩
  | .hbm, ⟨79, _⟩ => ⟨S16x32, .f32⟩
  | .hbm, ⟨80, _⟩ => ⟨S16x32, .f32⟩
  | .hbm, ⟨81, _⟩ => ⟨S16x32, .f32⟩
  | .hbm, ⟨82, _⟩ => ⟨S16x32x1, .f32⟩
  | .hbm, ⟨83, _⟩ => ⟨S16x32, .f32⟩
  | .hbm, ⟨84, _⟩ => ⟨S16x32x1, .f32⟩
  | .hbm, ⟨85, _⟩ => ⟨S16x32, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16x32, .f32⟩
  | .hbm, ⟨90, _⟩ => ⟨S16x32, .f32⟩
  | .hbm, ⟨91, _⟩ => ⟨S_, .f32⟩
  | .hbm, ⟨92, _⟩ => ⟨S16x32, .f32⟩
  | .hbm, ⟨93, _⟩ => ⟨S16x32, .f32⟩
  | .hbm, ⟨94, _⟩ => ⟨S16x32, .f32⟩
  | .hbm, ⟨95, _⟩ => ⟨S16x32, .f32⟩
  | .hbm, ⟨96, _⟩ => ⟨S16x32x1, .f32⟩
  | .hbm, ⟨97, _⟩ => ⟨S16x32x1, .f32⟩
  | .hbm, ⟨98, _⟩ => ⟨S16x32x1, .f32⟩
  | .hbm, ⟨99, _⟩ => ⟨S16x32x1, .f32⟩
  | .hbm, ⟨100, _⟩ => ⟨S16x32x1, .f32⟩
  | .hbm, ⟨101, _⟩ => ⟨S16x32x5, .f32⟩
  | _, _ => ⟨S16x224x7x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_cst_4 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_5 : Ref sig .tc := ⟨.hbm, 86, rfl⟩
abbrev main_cst_6 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S16x224x7x256_0_1_2_3 : S1x1x1x256.BroadcastsInDim S16x224x7x256 (![0, 1, 2, 3] : Fin 4 → Fin S16x224x7x256.rank)
  bcast_S_S16x224x7x256 : S_.BroadcastsInDim S16x224x7x256 (![] : Fin 0 → Fin S16x224x7x256.rank)
  shapeCasts_S16x224x7x256_S16x401408 : S16x224x7x256.ShapeCasts S16x401408
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  slices_S16x64_S16x32_0_0 : S16x64.Slices ![0, 0] S16x32
  slices_S16x64_S16x32_0_32 : S16x64.Slices ![0, 32] S16x32
  bcast_S16x32_S1x16x32_1_2 : S16x32.BroadcastsInDim S1x16x32 (![1, 2] : Fin 2 → Fin S1x16x32.rank)
  concatenates_S1x16x32_S1x16x32_S2x16x32_d0 : Shape.Concatenates [S1x16x32, S1x16x32] S2x16x32 0
  reducesTo_S2x16x32_S16x32_d0 : S2x16x32.ReducesTo [0] S16x32
  h_S_ : 0 < S_.numel
  bcast_S_S16x32 : S_.BroadcastsInDim S16x32 (![] : Fin 0 → Fin S16x32.rank)
  bcast_S1x16x32_S2x16x32_0_1_2 : S1x16x32.BroadcastsInDim S2x16x32 (![0, 1, 2] : Fin 3 → Fin S2x16x32.rank)
  slices_S2x16x32_S1x16x32_1_0_0 : S2x16x32.Slices ![1, 0, 0] S1x16x32
  shapeCasts_S1x16x32_S16x32 : S1x16x32.ShapeCasts S16x32
  bcast_S_S16x32x4 : S_.BroadcastsInDim S16x32x4 (![] : Fin 0 → Fin S16x32x4.rank)
  shapeCasts_S16x128_S16x4x32 : S16x128.ShapeCasts S16x4x32
  transposes_S16x4x32_S16x32x4_0_2_1 : S16x4x32.Transposes [0, 2, 1] S16x32x4
  slices_S16x32x4_S16x32x1_0_0_0 : S16x32x4.Slices ![0, 0, 0] S16x32x1
  shapeCasts_S16x32x1_S16x32 : S16x32x1.ShapeCasts S16x32
  slices_S16x32x4_S16x32x1_0_0_2 : S16x32x4.Slices ![0, 0, 2] S16x32x1
  slices_S16x32x4_S16x32x1_0_0_1 : S16x32x4.Slices ![0, 0, 1] S16x32x1
  slices_S16x32x4_S16x32x1_0_0_3 : S16x32x4.Slices ![0, 0, 3] S16x32x1
  bcast_S16x32_S16x32x1_0_1 : S16x32.BroadcastsInDim S16x32x1 (![0, 1] : Fin 2 → Fin S16x32x1.rank)
  concatenates_S16x32x1_S16x32x1_S16x32x1_S16x32x1_S16x32x1_S16x32x5_d2 : Shape.Concatenates [S16x32x1, S16x32x1, S16x32x1, S16x32x1, S16x32x1] S16x32x5 2
  dot_S16x224x7x512_S512x256_S16x224x7x256_3_0_012_1_n_n_wf : DotDims.WF S16x224x7x512 S512x256 S16x224x7x256 [3] [0] [0, 1, 2] [1] [] []
  dot_S16x401408_S401408x64_S16x64_1_0_0_1_n_n_wf : DotDims.WF S16x401408 S401408x64 S16x64 [1] [0] [0] [1] [] []
  dot_S16x401408_S401408x128_S16x128_1_0_0_1_n_n_wf : DotDims.WF S16x401408 S401408x128 S16x128 [1] [0] [0] [1] [] []

variable [Facts₀]

def dot_S16x224x7x512_S512x256_S16x224x7x256_3_0_012_1_n_n : DotDims S16x224x7x512 S512x256 S16x224x7x256 where
  lhsContracting := [3]
  rhsContracting := [0]
  lhsNonContracting := [0, 1, 2]
  rhsNonContracting := [1]
  lhsBatch := []
  rhsBatch := []
  wf := dot_S16x224x7x512_S512x256_S16x224x7x256_3_0_012_1_n_n_wf
def dot_S16x401408_S401408x64_S16x64_1_0_0_1_n_n : DotDims S16x401408 S401408x64 S16x64 where
  lhsContracting := [1]
  rhsContracting := [0]
  lhsNonContracting := [0]
  rhsNonContracting := [1]
  lhsBatch := []
  rhsBatch := []
  wf := dot_S16x401408_S401408x64_S16x64_1_0_0_1_n_n_wf
def dot_S16x401408_S401408x128_S16x128_1_0_0_1_n_n : DotDims S16x401408 S401408x128 S16x128 where
  lhsContracting := [1]
  rhsContracting := [0]
  lhsNonContracting := [0]
  rhsNonContracting := [1]
  lhsBatch := []
  rhsBatch := []
  wf := dot_S16x401408_S401408x128_S16x128_1_0_0_1_n_n_wf

class Facts : Prop extends Facts₀ where

variable [Facts]
-- ==== Proof.K.Region0.lean ====
/-
  The first pipeline of the program: the 1x1 convolution as one matrix product over row blocks. At each of its 14 grid
  points the body reads a block of 1792 rows of the flattened features, the whole weight matrix and the bias, and writes
  the block of the result: relu (rows · weights + bias). The body keeps nothing from point to point and covers its output
  block with one store, so what it leaves is a closed function of the three input blocks; the statements are made at a
  parameter `V`, the contents of the core's buffers when the pipeline is entered.
-/
import proofs.«171836_j33200097198456_2_alg».proof.Proof.Gen.Kernel.Launch
import proofs.«171836_j33200097198456_2_alg».proof.Proof.Gen.Kernel.Skeleton
import proofs.«171836_j33200097198456_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it is not fetched
    its block index has not moved (the weights and the bias have a constant index). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rl0_0 : Rect S1792x512 := Rect.unit (s := S1792x512) ![0, 0] S1792x512.size inb_S1792x512_S1792x512_0_0
abbrev rl0_1 : Rect S512x256 := Rect.unit (s := S512x256) ![0, 0] S512x256.size inb_S512x256_S512x256_0_0
abbrev rl0_2 : Rect S256 := Rect.unit (s := S256) ![0] S256.size inb_S256_S256_0
abbrev rs0_3 : Rect S1792x256 := Rect.unit (s := S1792x256) ![0, 0] S1792x256.size inb_S1792x256_S1792x256_0_0

/-! ## What the body leaves in the output window's buffer -/

/-- The output block after the body, from the three input blocks: its one store, of the body's arithmetic on the loads. -/
def out0_3 (x0 : Vec F S1792x512 .f32) (x1 : Vec F S512x256 .bf16) (x2 : Vec F S256 .f32) : Vec F S1792x256 .bf16 :=
  View.canon [⟨rs0_3, k0_pay1 (View.ld x0 rl0_0) (View.ld x1 rl0_1) (View.ld x2 rl0_2)⟩]

/-- The one store is of the whole block, so it covers it. -/
theorem cover0_3 (p0 : Vec F S1792x256 .bf16) (y : S1792x256.Idx) :
    ∃ pc ∈ ([⟨rs0_3, p0⟩] : List (View.Piece (Elt F) S1792x256 .bf16)), y ∈ pc.1.set :=
  View.cover_of_tiled [⟨rs0_3, p0⟩] S1792x256.size (by rfl) y

/-! ## The body's triple -/

set_option maxHeartbeats 1000000 in
/-- On whole staging buffers, the inputs' at contents `x0 x1 x2` and the output's at anything, the body runs to the
    continuation holding the inputs' as they were and the output's at `out0_3` of them. -/
theorem sound_kernel0 (c : Dev nD) (E : Set ℕ) (i : grid0.Coords) (arg1 : Memref sig .tc .vmem S1792x512 .f32) (harg1 : arg1.IsWhole) (arg2 : Memref sig .tc .vmem S512x256 .bf16) (harg2 : arg2.IsWhole) (arg3 : Memref sig .tc .vmem S256 .f32) (harg3 : arg3.IsWhole) (arg4 : Memref sig .tc .vmem S1792x256 .bf16) (harg4 : arg4.IsWhole)
    (x0 : Vec F S1792x512 .f32) (x1 : Vec F S512x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv_relu_kernel i arg1 harg1 arg2 harg2 arg3 harg3 arg4 harg4) K := by
  simp only [cc0__conv_relu_kernel_eq_skeleton]; unfold cc0__conv_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the pipeline finds them; after the body at point `t`
    each input's buffer at its block and the output's at `out0_3` of the input blocks; the scoped rest and the generator
    register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/- Region 1 (the second pallas_call, the accumulating matmul on the grid 2 x 16): what the two control cases of
   its body share — the branch condition in closed form, decided over the grid, and the staging memrefs the
   pipeline passes the body at a point. -/
import proofs.«171836_j33200097198456_2_alg».proof.Proof.Gen.Kernel.Launch
import proofs.«171836_j33200097198456_2_alg».proof.Proof.Gen.Kernel.Skeleton
import proofs.«171836_j33200097198456_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional: grid coordinate 1 is zero (the scalar chain of the body
    substituted: compare with zero, extend, compare with zero again). -/
abbrev cond1_0 (i : grid1.Coords) : Prop := (Scalar.cmpi .ne (Scalar.extui (Scalar.cmpi .eq (BitVec.ofNat 32 (i 1).val) 0#32)) 0#32) = 1#1

/-- It holds exactly at the first point of each half of the grid: the points whose linear position is a
    multiple of 16 — decided over the 32 points. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The staging memrefs at a point -/

/-- One staging buffer of each output window, through which its contents are stated (the choice does not matter:
    a covering list of pieces reads back the same through any whole view). -/
abbrev VO1_3 : View sig .tc .vmem S1x16x64 .f32 := (Memref.whole cc1_stg3_0 : Memref sig .tc .vmem S1x16x64 .f32).view
abbrev VO1_4 : View sig .tc .vmem S1x16x128 .f32 := (Memref.whole cc1_stg4_0 : Memref sig .tc .vmem S1x16x128 .f32).view

/-- Each window's current staging memref at point `t`, as the pipeline passes it to the body, and its wholeness. -/
abbrev ms1_0 (t : Fin cfg1.N) : Memref sig .tc .vmem S16x12544 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S12544x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S12544x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x128 .f32 := win1_4.stage (cfg1.slots t 4)
abbrev hs1_4 (t : Fin cfg1.N) : (ms1_4 t).IsWhole := hstage1_4 ((cfg1.slots t 4).cast nbuf1_4)

end Cert.Kernel.Hand

end
-- ==== Proof.K.R1RunA.lean ====
/- Region 1, control case A (grid coordinate 1 is zero: the first point of each half): the whole-body run of the
   accumulating matmul body. Both outputs' staging buffers arrive at anything; the body zeroes them, then adds the
   point's two products. The pieces each output's buffer ends with are the witness the run finds. -/
import proofs.«171836_j33200097198456_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), in case A, with the proof
    that on whole staging memrefs — the three inputs' at their contents, the two outputs' at anything — the body runs
    to the continuation holding the inputs' as they were and each output's buffer with its pieces written. -/
noncomputable def kernelRun1_A (c : Dev nD) (i : grid1.Coords)
    (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) :
    Σ' (L3 : List (View.Piece (Elt F) S1x16x64 .f32)), { L4 : List (View.Piece (Elt F) S1x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__big_matmul_kernel i arg2 harg2 arg3 harg3 arg4 harg4 arg5 harg5 arg6 harg6) K } := by
  refine ⟨?_, ?_, fun E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.K.R1RunB.lean ====
/- Region 1, control case B (grid coordinate 1 is not zero: a later point of a half): the whole-body run of the
   accumulating matmul body. Both outputs' staging buffers are read before they are covered, so they arrive at their
   running contents; the body adds the point's two products to them. -/
import proofs.«171836_j33200097198456_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), in case B, with the proof
    that on whole staging memrefs — the three inputs' at their contents, the two outputs' at their running contents
    `xo3`, `xo4` — the body runs to the continuation holding the inputs' as they were and each output's buffer with
    its pieces written. -/
noncomputable def kernelRun1_B (c : Dev nD) (i : grid1.Coords)
    (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32)
    (xo3 : Vec F S1x16x64 .f32) (xo4 : Vec F S1x16x128 .f32) :
    Σ' (L3 : List (View.Piece (Elt F) S1x16x64 .f32)), { L4 : List (View.Piece (Elt F) S1x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__big_matmul_kernel i arg2 harg2 arg3 harg3 arg4 harg4 arg5 harg5 arg6 harg6) K } := by
  refine ⟨?_, ?_, fun E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.K.Region1.lean ====
/- Region 1 (the second pallas_call, the accumulating matmul on the grid 2 x 16), stated at a parameter `V`: the
   buffer contents when the region is entered. Inputs 0, 1, 2 are fetched at every point; outputs 3 and 4 keep one block
   per half of the grid, written back at the last point of the half, so their staging buffers carry the running sums
   from point to point inside a half. This module gives what those buffers hold after each point (`outsAt1`), the
   pipeline's proof data (`dat1`), the body obligation, and the two value facts: at the first point of a half the
   outputs hold the point's products added to zero, at a later point the point's products added to what the point
   before left. -/
import proofs.«171836_j33200097198456_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data whose array is
    `V`'s and whose body leaves the block in place: the window is uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the outputs' buffers -/

/-- Case A's pieces for output 3 tile its block (checked by evaluation), so they cover it. -/
theorem cover1_A_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) (y : S1x16x64.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1x16x64.size (by sl_kernel_rfl) y

/-- What case A leaves in output 3's staging buffer: its pieces read back over junk. -/
def out1_A_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) : Vec F S1x16x64 .f32 :=
  VO1_3.read (Elt F) (VO1_3.writes (Elt F) VO1_3.junk (kernelRun1_A c i arg2 harg2 arg3 harg3 arg4 harg4 arg5 harg5 arg6 harg6 hc0 x0 x1 x2).1)

/-- Case A's pieces for output 4 tile its block (checked by evaluation), so they cover it. -/
theorem cover1_A_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) (y : S1x16x128.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S1x16x128.size (by sl_kernel_rfl) y

/-- What case A leaves in output 4's staging buffer: its pieces read back over junk. -/
def out1_A_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) : Vec F S1x16x128 .f32 :=
  VO1_4.read (Elt F) (VO1_4.writes (Elt F) VO1_4.junk (kernelRun1_A c i arg2 harg2 arg3 harg3 arg4 harg4 arg5 harg5 arg6 harg6 hc0 x0 x1 x2).2.1)

/-- Case B's pieces for output 3 tile its block (checked by evaluation), so they cover it. -/
theorem cover1_B_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) (y : S1x16x64.Idx) :
    ∃ pc ∈ (kernelRun1_B c i arg2 harg2 arg3 harg3 arg4 harg4 arg5 harg5 arg6 harg6 hc0 x0 x1 x2 xo3 xo4).1, y ∈ pc.1.set :=
  View.cover_of_tiledL (kernelRun1_B c i arg2 harg2 arg3 harg3 arg4 harg4 arg5 harg5 arg6 harg6 hc0 x0 x1 x2 xo3 xo4).1 S1x16x64.size (by sl_kernel_rfl) y

/-- What case B leaves in output 3's staging buffer: its pieces read back over junk. -/
def out1_B_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) : Vec F S1x16x64 .f32 :=
  VO1_3.read (Elt F) (VO1_3.writes (Elt F) VO1_3.junk (kernelRun1_B c i arg2 harg2 arg3 harg3 arg4 harg4 arg5 harg5 arg6 harg6 hc0 x0 x1 x2 xo3 xo4).1)

/-- Case B's pieces for output 4 tile its block (checked by evaluation), so they cover it. -/
theorem cover1_B_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) (y : S1x16x128.Idx) :
    ∃ pc ∈ (kernelRun1_B c i arg2 harg2 arg3 harg3 arg4 harg4 arg5 harg5 arg6 harg6 hc0 x0 x1 x2 xo3 xo4).2.1, y ∈ pc.1.set :=
  View.cover_of_tiledL (kernelRun1_B c i arg2 harg2 arg3 harg3 arg4 harg4 arg5 harg5 arg6 harg6 hc0 x0 x1 x2 xo3 xo4).2.1 S1x16x128.size (by sl_kernel_rfl) y

/-- What case B leaves in output 4's staging buffer: its pieces read back over junk. -/
def out1_B_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) : Vec F S1x16x128 .f32 :=
  VO1_4.read (Elt F) (VO1_4.writes (Elt F) VO1_4.junk (kernelRun1_B c i arg2 harg2 arg3 harg3 arg4 harg4 arg5 harg5 arg6 harg6 hc0 x0 x1 x2 xo3 xo4).2.1)

/-! ## What the outputs hold after each point -/

/-- THE ACCUMULATION. What the two outputs' staging buffers hold after the body at position `n`: the case the closed
    form selects at `n`, run at the point's memrefs and input blocks; in case B over what this leaves at `n - 1`
    (the buffers are not written back between). -/
def outsAt1 (c : Dev nD) : (n : ℕ) → n < cfg1.N → Vec F S1x16x64 .f32 × Vec F S1x16x128 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩),
     out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 16 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- `outsAt1` at a point of case A: that case's contents. -/
theorem outsAt1_A (c : Dev nD) (t : Fin cfg1.N) (h0 : t.val % 16 = 0) :
    outsAt1 V c t.val t.isLt =
      (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t),
       out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt =
      (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
       out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

theorem outsAt1_A_3 (c : Dev nD) (t : Fin cfg1.N) (h0 : t.val % 16 = 0) :
    (outsAt1 V c t.val t.isLt).1 = out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) := by
  rw [outsAt1_A V c t h0]
theorem outsAt1_A_4 (c : Dev nD) (t : Fin cfg1.N) (h0 : t.val % 16 = 0) :
    (outsAt1 V c t.val t.isLt).2 = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) := by
  rw [outsAt1_A V c t h0]
theorem outsAt1_B_3 (c : Dev nD) (t : Fin cfg1.N) (h0 : ¬t.val % 16 = 0) :
    (outsAt1 V c t.val t.isLt).1 = out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2 := by
  rw [outsAt1_B V c t h0]
theorem outsAt1_B_4 (c : Dev nD) (t : Fin cfg1.N) (h0 : ¬t.val % 16 = 0) :
    (outsAt1 V c t.val t.isLt).2 = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2 := by
  rw [outsAt1_B V c t h0]

/-! ## The pipeline's proof data -/

/-- The proof data of this pipeline on core `c`: the arrays as the region finds them (`V`); after the body at
    point `t` each input's buffer at its block and the two outputs' at `outsAt1`; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point of case B an output's current staging buffer holds what the body left at the point before: the
    point is not the first, and the point before is not the last of a half, so the buffer was not written back
    between; the window is live and uncut. -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)).1 := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 16 = 0) (d) :
    (dat1 V c).before 4 t d = (outsAt1 V c (t.val - 1) (Nat.lt_of_le_of_lt (Nat.sub_le _ _) t.isLt)).2 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the closed form says which case the point is in;
    in case B the outputs' buffers hold what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 32 := lt_of_lt_of_eq t.isLt (show cfg1.N = 32 from N_1)
  by_cases h0 : t.val % 16 = 0
  · rw [outsAt1_A_3 V c t h0, outsAt1_A_4 V c t h0]
    unfold out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    · unfold owns; iexists _; isplitr
      swap; · iexact H4
      ipureintro; exact View.read_writes_of_cover _ _ _ _ _ (cover1_A_4 c _ _ _ _ _ _ _ _ _ _ _ _ _ _ _)
  · rw [outsAt1_B_3 V c t h0, outsAt1_B_4 V c t h0]
    simp only [before1_3_B V c t h0, before1_4_B V c t h0]
    unfold out1_B_3 out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _)
    · unfold owns; iexists _; isplitr
      swap; · iexact H4
      ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The program's run: @main is nine segments in order — a stretch of host operations (the features flattened to rows, the
  weights converted), the convolution pipeline, a stretch (its result flattened to [16, 401408]), the pipeline of the two big
  products, and five stretches of host operations (the two halves added, the biases, the softmax and the box decoding, the
  five columns joined). The contents of the core's buffers at each boundary are a fold from the launch memory: a
  stretch applies its operations; a pipeline leaves its arrays at what its write-backs leave and every other buffer as
  entered. Every weakly fair execution terminates, and every final memory holds every unscoped buffer at the last
  boundary's contents: the arguments as launched, the result buffer at the fold's value.
-/
import proofs.«171836_j33200097198456_2_alg».proof.Proof.Gen.Kernel.Launch
import proofs.«171836_j33200097198456_2_alg».proof.Proof.Gen.Kernel.Skeleton
import proofs.«171836_j33200097198456_2_alg».proof.Proof.Gen.Kernel.Points
import proofs.«171836_j33200097198456_2_alg».proof.Proof.Gen.Kernel.Regions
import proofs.«171836_j33200097198456_2_alg».proof.Proof.K.Region0
import proofs.«171836_j33200097198456_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the first pipeline's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first pipeline's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch (the second pipeline's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second pipeline's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After each of the five last stretches. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)

/-! ### The arguments end as launched: no host operation writes one, and a pipeline only reads one -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps2_4 _ hostOps2_4_writes (by decide : main_arg0 ∉ hostOps2_4_W)
    _ = W7 m ρ c (Proc.devRef .tc main_arg0) := StableHlo.after_of_writes_sub hostOps2_3 _ hostOps2_3_writes (by decide : main_arg0 ∉ hostOps2_3_W)
    _ = W6 m ρ c (Proc.devRef .tc main_arg0) := StableHlo.after_of_writes_sub hostOps2_2 _ hostOps2_2_writes (by decide : main_arg0 ∉ hostOps2_2_W)
    _ = W5 m ρ c (Proc.devRef .tc main_arg0) := StableHlo.after_of_writes_sub hostOps2_1 _ hostOps2_1_writes (by decide : main_arg0 ∉ hostOps2_1_W)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps2_4 _ hostOps2_4_writes (by decide : main_arg1 ∉ hostOps2_4_W)
    _ = W7 m ρ c (Proc.devRef .tc main_arg1) := StableHlo.after_of_writes_sub hostOps2_3 _ hostOps2_3_writes (by decide : main_arg1 ∉ hostOps2_3_W)
    _ = W6 m ρ c (Proc.devRef .tc main_arg1) := StableHlo.after_of_writes_sub hostOps2_2 _ hostOps2_2_writes (by decide : main_arg1 ∉ hostOps2_2_W)
    _ = W5 m ρ c (Proc.devRef .tc main_arg1) := StableHlo.after_of_writes_sub hostOps2_1 _ hostOps2_1_writes (by decide : main_arg1 ∉ hostOps2_1_W)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps2_4 _ hostOps2_4_writes (by decide : main_arg2 ∉ hostOps2_4_W)
    _ = W7 m ρ c (Proc.devRef .tc main_arg2) := StableHlo.after_of_writes_sub hostOps2_3 _ hostOps2_3_writes (by decide : main_arg2 ∉ hostOps2_3_W)
    _ = W6 m ρ c (Proc.devRef .tc main_arg2) := StableHlo.after_of_writes_sub hostOps2_2 _ hostOps2_2_writes (by decide : main_arg2 ∉ hostOps2_2_W)
    _ = W5 m ρ c (Proc.devRef .tc main_arg2) := StableHlo.after_of_writes_sub hostOps2_1 _ hostOps2_1_writes (by decide : main_arg2 ∉ hostOps2_1_W)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps2_4 _ hostOps2_4_writes (by decide : main_arg3 ∉ hostOps2_4_W)
    _ = W7 m ρ c (Proc.devRef .tc main_arg3) := StableHlo.after_of_writes_sub hostOps2_3 _ hostOps2_3_writes (by decide : main_arg3 ∉ hostOps2_3_W)
    _ = W6 m ρ c (Proc.devRef .tc main_arg3) := StableHlo.after_of_writes_sub hostOps2_2 _ hostOps2_2_writes (by decide : main_arg3 ∉ hostOps2_2_W)
    _ = W5 m ρ c (Proc.devRef .tc main_arg3) := StableHlo.after_of_writes_sub hostOps2_1 _ hostOps2_1_writes (by decide : main_arg3 ∉ hostOps2_1_W)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 2).trans (((dat0 (U1 m ρ) c).arrAt_in 2 rfl _).trans (A_eq0 (U1 m ρ) c 2))
    _ = W0 m ρ c (Proc.devRef .tc main_arg3) := StableHlo.after_of_writes_sub hostOps0 _ hostOps0_writes (by decide : main_arg3 ∉ hostOps0_W)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps2_4 _ hostOps2_4_writes (by decide : main_arg4 ∉ hostOps2_4_W)
    _ = W7 m ρ c (Proc.devRef .tc main_arg4) := StableHlo.after_of_writes_sub hostOps2_3 _ hostOps2_3_writes (by decide : main_arg4 ∉ hostOps2_3_W)
    _ = W6 m ρ c (Proc.devRef .tc main_arg4) := StableHlo.after_of_writes_sub hostOps2_2 _ hostOps2_2_writes (by decide : main_arg4 ∉ hostOps2_2_W)
    _ = W5 m ρ c (Proc.devRef .tc main_arg4) := StableHlo.after_of_writes_sub hostOps2_1 _ hostOps2_1_writes (by decide : main_arg4 ∉ hostOps2_1_W)
    _ = W4 m ρ c (Proc.devRef .tc main_arg4) := StableHlo.after_of_writes_sub hostOps2 _ hostOps2_writes (by decide : main_arg4 ∉ hostOps2_W)
    _ = W3 m ρ c (Proc.devRef .tc main_arg4) := (W4_arr m ρ c 1).trans (((dat1 (U3 m ρ) c).arrAt_in 1 rfl _).trans (A_eq1 (U3 m ρ) c 1))
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps2_4 _ hostOps2_4_writes (by decide : main_arg5 ∉ hostOps2_4_W)
    _ = W7 m ρ c (Proc.devRef .tc main_arg5) := StableHlo.after_of_writes_sub hostOps2_3 _ hostOps2_3_writes (by decide : main_arg5 ∉ hostOps2_3_W)
    _ = W6 m ρ c (Proc.devRef .tc main_arg5) := StableHlo.after_of_writes_sub hostOps2_2 _ hostOps2_2_writes (by decide : main_arg5 ∉ hostOps2_2_W)
    _ = W5 m ρ c (Proc.devRef .tc main_arg5) := StableHlo.after_of_writes_sub hostOps2_1 _ hostOps2_1_writes (by decide : main_arg5 ∉ hostOps2_1_W)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps2_4 _ hostOps2_4_writes (by decide : main_arg6 ∉ hostOps2_4_W)
    _ = W7 m ρ c (Proc.devRef .tc main_arg6) := StableHlo.after_of_writes_sub hostOps2_3 _ hostOps2_3_writes (by decide : main_arg6 ∉ hostOps2_3_W)
    _ = W6 m ρ c (Proc.devRef .tc main_arg6) := StableHlo.after_of_writes_sub hostOps2_2 _ hostOps2_2_writes (by decide : main_arg6 ∉ hostOps2_2_W)
    _ = W5 m ρ c (Proc.devRef .tc main_arg6) := StableHlo.after_of_writes_sub hostOps2_1 _ hostOps2_1_writes (by decide : main_arg6 ∉ hostOps2_1_W)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 2).trans (((dat1 (U3 m ρ) c).arrAt_in 2 rfl _).trans (A_eq1 (U3 m ρ) c 2))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps2_4 _ hostOps2_4_writes (by decide : main_arg7 ∉ hostOps2_4_W)
    _ = W7 m ρ c (Proc.devRef .tc main_arg7) := StableHlo.after_of_writes_sub hostOps2_3 _ hostOps2_3_writes (by decide : main_arg7 ∉ hostOps2_3_W)
    _ = W6 m ρ c (Proc.devRef .tc main_arg7) := StableHlo.after_of_writes_sub hostOps2_2 _ hostOps2_2_writes (by decide : main_arg7 ∉ hostOps2_2_W)
    _ = W5 m ρ c (Proc.devRef .tc main_arg7) := StableHlo.after_of_writes_sub hostOps2_1 _ hostOps2_1_writes (by decide : main_arg7 ∉ hostOps2_1_W)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev admH : (p : Fin 2) → (pcfgs (F := F) p).Adm := fun p => (cfgs p).toPCfg_adm
/-- Every pipeline's proof data, each at its entry contents. -/
def pdats : (p : Fin 2) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment, from the contents `W`, `RH` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev TH (c : Dev nD) : sProp 𝕄 := iprop(StableHlo.held (c : Thread nD τ) (Pipeline.ucRefs τ sig) (W9 m ρ c) ∗ ∃ r, prngReg c r)

/-! ## The pipelines as segments -/

set_option backward.isDefEq.respectTransparency.types false in
/-- Pipeline 0 over the thread state: entered from every unscoped buffer at `W1`, left at `W2`. Its arrays are
    split out of the unscoped buffers at entry and put back at the exit contents; the generator register goes into the
    pipeline's invariant and comes back; nothing is owed; the kernel names no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W3`, left at `W4`. Its arrays are
    split out of the unscoped buffers at entry and put back at the exit contents; the generator register goes into the
    pipeline's invariant and comes back; nothing is owed; the kernel names no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)) ]

set_option backward.isDefEq.respectTransparency.types false in
/-- THE RUN: from any memory with zero counters every weakly fair execution of @main terminates, nothing faulting, and
    in every final memory each unscoped buffer holds the last boundary's contents — read here at the result buffer and
    at the eight arguments. -/
theorem run : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) admH (pdats m ρ) () cellOf_inj emb₁ defs₀ 𝒱H LH lvH m ρ main (segsH m ρ)
    (fun c Q => by
      rewrite [main_chain c, Pipeline.Seg.run_eq_chain,
        show (segsH m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ (∃ r, prngReg c r) ∗ ∃ W, owes (c : Thread nD τ) (0 : CellTallies nD τ sig Unit) W) : sProp 𝕄)
          ⊢ iprop((StableHlo.held (c : Thread nD τ) (Pipeline.ucRefs τ sig) (W9 m ρ c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Kernel.Hand

end
-- ==== Proof.KI.Region0.lean ====
/-
  The first pipeline of the program: the 1x1 convolution as one matrix product over row blocks. At each of its 14 grid
  points the body reads a block of 1792 rows of the flattened features, the whole weight matrix and the bias, and writes
  the block of the result: relu (rows · weights + bias). The body keeps nothing from point to point and covers its output
  block with one store, so what it leaves is a closed function of the three input blocks; the statements are made at a
  parameter `V`, the contents of the core's buffers when the pipeline is entered.
-/
import proofs.«171836_j33200097198456_2_alg».proof.Proof.Gen.KernelIdeal.Launch
import proofs.«171836_j33200097198456_2_alg».proof.Proof.Gen.KernelIdeal.Skeleton
import proofs.«171836_j33200097198456_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it is not fetched
    its block index has not moved (the weights and the bias have a constant index). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rl0_0 : Rect S1792x512 := Rect.unit (s := S1792x512) ![0, 0] S1792x512.size inb_S1792x512_S1792x512_0_0
abbrev rl0_1 : Rect S512x256 := Rect.unit (s := S512x256) ![0, 0] S512x256.size inb_S512x256_S512x256_0_0
abbrev rl0_2 : Rect S256 := Rect.unit (s := S256) ![0] S256.size inb_S256_S256_0
abbrev rs0_3 : Rect S1792x256 := Rect.unit (s := S1792x256) ![0, 0] S1792x256.size inb_S1792x256_S1792x256_0_0

/-! ## What the body leaves in the output window's buffer -/

/-- The output block after the body, from the three input blocks: its one store, of the body's arithmetic on the loads. -/
def out0_3 (x0 : Vec F S1792x512 .f32) (x1 : Vec F S512x256 .bf16) (x2 : Vec F S256 .f32) : Vec F S1792x256 .bf16 :=
  View.canon [⟨rs0_3, k0_pay1 (View.ld x0 rl0_0) (View.ld x1 rl0_1) (View.ld x2 rl0_2)⟩]

/-- The one store is of the whole block, so it covers it. -/
theorem cover0_3 (p0 : Vec F S1792x256 .bf16) (y : S1792x256.Idx) :
    ∃ pc ∈ ([⟨rs0_3, p0⟩] : List (View.Piece (Elt F) S1792x256 .bf16)), y ∈ pc.1.set :=
  View.cover_of_tiled [⟨rs0_3, p0⟩] S1792x256.size (by rfl) y

/-! ## The body's triple -/

set_option maxHeartbeats 1000000 in
/-- On whole staging buffers, the inputs' at contents `x0 x1 x2` and the output's at anything, the body runs to the
    continuation holding the inputs' as they were and the output's at `out0_3` of them. -/
theorem sound_kernel0 (c : Dev nD) (E : Set ℕ) (i : grid0.Coords) (arg1 : Memref sig .tc .vmem S1792x512 .f32) (harg1 : arg1.IsWhole) (arg2 : Memref sig .tc .vmem S512x256 .bf16) (harg2 : arg2.IsWhole) (arg3 : Memref sig .tc .vmem S256 .f32) (harg3 : arg3.IsWhole) (arg4 : Memref sig .tc .vmem S1792x256 .bf16) (harg4 : arg4.IsWhole)
    (x0 : Vec F S1792x512 .f32) (x1 : Vec F S512x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv_relu_kernel i arg1 harg1 arg2 harg2 arg3 harg3 arg4 harg4) K := by
  simp only [cc0__conv_relu_kernel_eq_skeleton]; unfold cc0__conv_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the pipeline finds them; after the body at point `t`
    each input's buffer at its block and the output's at `out0_3` of the input blocks; the scoped rest and the generator
    register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/- Region 1 (the second pallas_call, the accumulating matmul on the grid 2 x 16): what the two control cases of
   its body share — the branch condition in closed form, decided over the grid, and the staging memrefs the
   pipeline passes the body at a point. -/
import proofs.«171836_j33200097198456_2_alg».proof.Proof.Gen.KernelIdeal.Launch
import proofs.«171836_j33200097198456_2_alg».proof.Proof.Gen.KernelIdeal.Skeleton
import proofs.«171836_j33200097198456_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional: grid coordinate 1 is zero (the scalar chain of the body
    substituted: compare with zero, extend, compare with zero again). -/
abbrev cond1_0 (i : grid1.Coords) : Prop := (Scalar.cmpi .ne (Scalar.extui (Scalar.cmpi .eq (BitVec.ofNat 32 (i 1).val) 0#32)) 0#32) = 1#1

/-- It holds exactly at the first point of each half of the grid: the points whose linear position is a
    multiple of 16 — decided over the 32 points. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The staging memrefs at a point -/

/-- One staging buffer of each output window, through which its contents are stated (the choice does not matter:
    a covering list of pieces reads back the same through any whole view). -/
abbrev VO1_3 : View sig .tc .vmem S1x16x64 .f32 := (Memref.whole cc1_stg3_0 : Memref sig .tc .vmem S1x16x64 .f32).view
abbrev VO1_4 : View sig .tc .vmem S1x16x128 .f32 := (Memref.whole cc1_stg4_0 : Memref sig .tc .vmem S1x16x128 .f32).view

/-- Each window's current staging memref at point `t`, as the pipeline passes it to the body, and its wholeness. -/
abbrev ms1_0 (t : Fin cfg1.N) : Memref sig .tc .vmem S16x12544 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S12544x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S12544x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x128 .f32 := win1_4.stage (cfg1.slots t 4)
abbrev hs1_4 (t : Fin cfg1.N) : (ms1_4 t).IsWhole := hstage1_4 ((cfg1.slots t 4).cast nbuf1_4)

end Cert.KernelIdeal.Hand

end
-- ==== Proof.KI.R1RunA.lean ====
/- Region 1, control case A (grid coordinate 1 is zero: the first point of each half): the whole-body run of the
   accumulating matmul body. Both outputs' staging buffers arrive at anything; the body zeroes them, then adds the
   point's two products. The pieces each output's buffer ends with are the witness the run finds. -/
import proofs.«171836_j33200097198456_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), in case A, with the proof
    that on whole staging memrefs — the three inputs' at their contents, the two outputs' at anything — the body runs
    to the continuation holding the inputs' as they were and each output's buffer with its pieces written. -/
noncomputable def kernelRun1_A (c : Dev nD) (i : grid1.Coords)
    (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) :
    Σ' (L3 : List (View.Piece (Elt F) S1x16x64 .f32)), { L4 : List (View.Piece (Elt F) S1x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__big_matmul_kernel i arg2 harg2 arg3 harg3 arg4 harg4 arg5 harg5 arg6 harg6) K } := by
  refine ⟨?_, ?_, fun E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KI.R1RunB.lean ====
/- Region 1, control case B (grid coordinate 1 is not zero: a later point of a half): the whole-body run of the
   accumulating matmul body. Both outputs' staging buffers are read before they are covered, so they arrive at their
   running contents; the body adds the point's two products to them. -/
import proofs.«171836_j33200097198456_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), in case B, with the proof
    that on whole staging memrefs — the three inputs' at their contents, the two outputs' at their running contents
    `xo3`, `xo4` — the body runs to the continuation holding the inputs' as they were and each output's buffer with
    its pieces written. -/
noncomputable def kernelRun1_B (c : Dev nD) (i : grid1.Coords)
    (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32)
    (xo3 : Vec F S1x16x64 .f32) (xo4 : Vec F S1x16x128 .f32) :
    Σ' (L3 : List (View.Piece (Elt F) S1x16x64 .f32)), { L4 : List (View.Piece (Elt F) S1x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc1__big_matmul_kernel i arg2 harg2 arg3 harg3 arg4 harg4 arg5 harg5 arg6 harg6) K } := by
  refine ⟨?_, ?_, fun E K => ?run⟩
  case run =>
    simp only [cc1__big_matmul_kernel_eq_skeleton]; unfold cc1__big_matmul_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KI.Region1.lean ====
/- Region 1 (the second pallas_call, the accumulating matmul on the grid 2 x 16), stated at a parameter `V`: the
   buffer contents when the region is entered. Inputs 0, 1, 2 are fetched at every point; outputs 3 and 4 keep one block
   per half of the grid, written back at the last point of the half, so their staging buffers carry the running sums
   from point to point inside a half. This module gives what those buffers hold after each point (`outsAt1`), the
   pipeline's proof data (`dat1`), the body obligation, and the two value facts: at the first point of a half the
   outputs hold the point's products added to zero, at a later point the point's products added to what the point
   before left. -/
import proofs.«171836_j33200097198456_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data whose array is
    `V`'s and whose body leaves the block in place: the window is uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the outputs' buffers -/

/-- Case A's pieces for output 3 tile its block (checked by evaluation), so they cover it. -/
theorem cover1_A_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) (y : S1x16x64.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1x16x64.size (by sl_kernel_rfl) y

/-- What case A leaves in output 3's staging buffer: its pieces read back over junk. -/
def out1_A_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) : Vec F S1x16x64 .f32 :=
  VO1_3.read (Elt F) (VO1_3.writes (Elt F) VO1_3.junk (kernelRun1_A c i arg2 harg2 arg3 harg3 arg4 harg4 arg5 harg5 arg6 harg6 hc0 x0 x1 x2).1)

/-- Case A's pieces for output 4 tile its block (checked by evaluation), so they cover it. -/
theorem cover1_A_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) (y : S1x16x128.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S1x16x128.size (by sl_kernel_rfl) y

/-- What case A leaves in output 4's staging buffer: its pieces read back over junk. -/
def out1_A_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) : Vec F S1x16x128 .f32 :=
  VO1_4.read (Elt F) (VO1_4.writes (Elt F) VO1_4.junk (kernelRun1_A c i arg2 harg2 arg3 harg3 arg4 harg4 arg5 harg5 arg6 harg6 hc0 x0 x1 x2).2.1)

/-- Case B's pieces for output 3 tile its block (checked by evaluation), so they cover it. -/
theorem cover1_B_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) (y : S1x16x64.Idx) :
    ∃ pc ∈ (kernelRun1_B c i arg2 harg2 arg3 harg3 arg4 harg4 arg5 harg5 arg6 harg6 hc0 x0 x1 x2 xo3 xo4).1, y ∈ pc.1.set :=
  View.cover_of_tiledL (kernelRun1_B c i arg2 harg2 arg3 harg3 arg4 harg4 arg5 harg5 arg6 harg6 hc0 x0 x1 x2 xo3 xo4).1 S1x16x64.size (by sl_kernel_rfl) y

/-- What case B leaves in output 3's staging buffer: its pieces read back over junk. -/
def out1_B_3 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) : Vec F S1x16x64 .f32 :=
  VO1_3.read (Elt F) (VO1_3.writes (Elt F) VO1_3.junk (kernelRun1_B c i arg2 harg2 arg3 harg3 arg4 harg4 arg5 harg5 arg6 harg6 hc0 x0 x1 x2 xo3 xo4).1)

/-- Case B's pieces for output 4 tile its block (checked by evaluation), so they cover it. -/
theorem cover1_B_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) (y : S1x16x128.Idx) :
    ∃ pc ∈ (kernelRun1_B c i arg2 harg2 arg3 harg3 arg4 harg4 arg5 harg5 arg6 harg6 hc0 x0 x1 x2 xo3 xo4).2.1, y ∈ pc.1.set :=
  View.cover_of_tiledL (kernelRun1_B c i arg2 harg2 arg3 harg3 arg4 harg4 arg5 harg5 arg6 harg6 hc0 x0 x1 x2 xo3 xo4).2.1 S1x16x128.size (by sl_kernel_rfl) y

/-- What case B leaves in output 4's staging buffer: its pieces read back over junk. -/
def out1_B_4 (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) : Vec F S1x16x128 .f32 :=
  VO1_4.read (Elt F) (VO1_4.writes (Elt F) VO1_4.junk (kernelRun1_B c i arg2 harg2 arg3 harg3 arg4 harg4 arg5 harg5 arg6 harg6 hc0 x0 x1 x2 xo3 xo4).2.1)

/-! ## What the outputs hold after each point -/

/-- THE ACCUMULATION. What the two outputs' staging buffers hold after the body at position `n`: the case the closed
    form selects at `n`, run at the point's memrefs and input blocks; in case B over what this leaves at `n - 1`
    (the buffers are not written back between). -/
def outsAt1 (c : Dev nD) : (n : ℕ) → n < cfg1.N → Vec F S1x16x64 .f32 × Vec F S1x16x128 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩),
     out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 16 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- `outsAt1` at a point of case A: that case's contents. -/
theorem outsAt1_A (c : Dev nD) (t : Fin cfg1.N) (h0 : t.val % 16 = 0) :
    outsAt1 V c t.val t.isLt =
      (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t),
       out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt =
      (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
       out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

theorem outsAt1_A_3 (c : Dev nD) (t : Fin cfg1.N) (h0 : t.val % 16 = 0) :
    (outsAt1 V c t.val t.isLt).1 = out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) := by
  rw [outsAt1_A V c t h0]
theorem outsAt1_A_4 (c : Dev nD) (t : Fin cfg1.N) (h0 : t.val % 16 = 0) :
    (outsAt1 V c t.val t.isLt).2 = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) := by
  rw [outsAt1_A V c t h0]
theorem outsAt1_B_3 (c : Dev nD) (t : Fin cfg1.N) (h0 : ¬t.val % 16 = 0) :
    (outsAt1 V c t.val t.isLt).1 = out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2 := by
  rw [outsAt1_B V c t h0]
theorem outsAt1_B_4 (c : Dev nD) (t : Fin cfg1.N) (h0 : ¬t.val % 16 = 0) :
    (outsAt1 V c t.val t.isLt).2 = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2 := by
  rw [outsAt1_B V c t h0]

/-! ## The pipeline's proof data -/

/-- The proof data of this pipeline on core `c`: the arrays as the region finds them (`V`); after the body at
    point `t` each input's buffer at its block and the two outputs' at `outsAt1`; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point of case B an output's current staging buffer holds what the body left at the point before: the
    point is not the first, and the point before is not the last of a half, so the buffer was not written back
    between; the window is live and uncut. -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)).1 := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 16 = 0) (d) :
    (dat1 V c).before 4 t d = (outsAt1 V c (t.val - 1) (Nat.lt_of_le_of_lt (Nat.sub_le _ _) t.isLt)).2 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks; the closed form says which case the point is in;
    in case B the outputs' buffers hold what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 32 := lt_of_lt_of_eq t.isLt (show cfg1.N = 32 from N_1)
  by_cases h0 : t.val % 16 = 0
  · rw [outsAt1_A_3 V c t h0, outsAt1_A_4 V c t h0]
    unfold out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    · unfold owns; iexists _; isplitr
      swap; · iexact H4
      ipureintro; exact View.read_writes_of_cover _ _ _ _ _ (cover1_A_4 c _ _ _ _ _ _ _ _ _ _ _ _ _ _ _)
  · rw [outsAt1_B_3 V c t h0, outsAt1_B_4 V c t h0]
    simp only [before1_3_B V c t h0, before1_4_B V c t h0]
    unfold out1_B_3 out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _)
    · unfold owns; iexists _; isplitr
      swap; · iexact H4
      ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The program's run: @main is nine segments in order — a stretch of host operations (the features flattened to rows, the
  weights converted), the convolution pipeline, a stretch (its result flattened to [16, 401408]), the pipeline of the two big
  products, and five stretches of host operations (the two halves added, the biases, the softmax and the box decoding, the
  five columns joined). The contents of the core's buffers at each boundary are a fold from the launch memory: a
  stretch applies its operations; a pipeline leaves its arrays at what its write-backs leave and every other buffer as
  entered. Every weakly fair execution terminates, and every final memory holds every unscoped buffer at the last
  boundary's contents: the arguments as launched, the result buffer at the fold's value.
-/
import proofs.«171836_j33200097198456_2_alg».proof.Proof.Gen.KernelIdeal.Launch
import proofs.«171836_j33200097198456_2_alg».proof.Proof.Gen.KernelIdeal.Skeleton
import proofs.«171836_j33200097198456_2_alg».proof.Proof.Gen.KernelIdeal.Points
import proofs.«171836_j33200097198456_2_alg».proof.Proof.Gen.KernelIdeal.Regions
import proofs.«171836_j33200097198456_2_alg».proof.Proof.KI.Region0
import proofs.«171836_j33200097198456_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the first pipeline's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first pipeline's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch (the second pipeline's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second pipeline's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After each of the five last stretches. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)

/-! ### The arguments end as launched: no host operation writes one, and a pipeline only reads one -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps2_4 _ hostOps2_4_writes (by decide : main_arg0 ∉ hostOps2_4_W)
    _ = W7 m ρ c (Proc.devRef .tc main_arg0) := StableHlo.after_of_writes_sub hostOps2_3 _ hostOps2_3_writes (by decide : main_arg0 ∉ hostOps2_3_W)
    _ = W6 m ρ c (Proc.devRef .tc main_arg0) := StableHlo.after_of_writes_sub hostOps2_2 _ hostOps2_2_writes (by decide : main_arg0 ∉ hostOps2_2_W)
    _ = W5 m ρ c (Proc.devRef .tc main_arg0) := StableHlo.after_of_writes_sub hostOps2_1 _ hostOps2_1_writes (by decide : main_arg0 ∉ hostOps2_1_W)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps2_4 _ hostOps2_4_writes (by decide : main_arg1 ∉ hostOps2_4_W)
    _ = W7 m ρ c (Proc.devRef .tc main_arg1) := StableHlo.after_of_writes_sub hostOps2_3 _ hostOps2_3_writes (by decide : main_arg1 ∉ hostOps2_3_W)
    _ = W6 m ρ c (Proc.devRef .tc main_arg1) := StableHlo.after_of_writes_sub hostOps2_2 _ hostOps2_2_writes (by decide : main_arg1 ∉ hostOps2_2_W)
    _ = W5 m ρ c (Proc.devRef .tc main_arg1) := StableHlo.after_of_writes_sub hostOps2_1 _ hostOps2_1_writes (by decide : main_arg1 ∉ hostOps2_1_W)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps2_4 _ hostOps2_4_writes (by decide : main_arg2 ∉ hostOps2_4_W)
    _ = W7 m ρ c (Proc.devRef .tc main_arg2) := StableHlo.after_of_writes_sub hostOps2_3 _ hostOps2_3_writes (by decide : main_arg2 ∉ hostOps2_3_W)
    _ = W6 m ρ c (Proc.devRef .tc main_arg2) := StableHlo.after_of_writes_sub hostOps2_2 _ hostOps2_2_writes (by decide : main_arg2 ∉ hostOps2_2_W)
    _ = W5 m ρ c (Proc.devRef .tc main_arg2) := StableHlo.after_of_writes_sub hostOps2_1 _ hostOps2_1_writes (by decide : main_arg2 ∉ hostOps2_1_W)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps2_4 _ hostOps2_4_writes (by decide : main_arg3 ∉ hostOps2_4_W)
    _ = W7 m ρ c (Proc.devRef .tc main_arg3) := StableHlo.after_of_writes_sub hostOps2_3 _ hostOps2_3_writes (by decide : main_arg3 ∉ hostOps2_3_W)
    _ = W6 m ρ c (Proc.devRef .tc main_arg3) := StableHlo.after_of_writes_sub hostOps2_2 _ hostOps2_2_writes (by decide : main_arg3 ∉ hostOps2_2_W)
    _ = W5 m ρ c (Proc.devRef .tc main_arg3) := StableHlo.after_of_writes_sub hostOps2_1 _ hostOps2_1_writes (by decide : main_arg3 ∉ hostOps2_1_W)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 2).trans (((dat0 (U1 m ρ) c).arrAt_in 2 rfl _).trans (A_eq0 (U1 m ρ) c 2))
    _ = W0 m ρ c (Proc.devRef .tc main_arg3) := StableHlo.after_of_writes_sub hostOps0 _ hostOps0_writes (by decide : main_arg3 ∉ hostOps0_W)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps2_4 _ hostOps2_4_writes (by decide : main_arg4 ∉ hostOps2_4_W)
    _ = W7 m ρ c (Proc.devRef .tc main_arg4) := StableHlo.after_of_writes_sub hostOps2_3 _ hostOps2_3_writes (by decide : main_arg4 ∉ hostOps2_3_W)
    _ = W6 m ρ c (Proc.devRef .tc main_arg4) := StableHlo.after_of_writes_sub hostOps2_2 _ hostOps2_2_writes (by decide : main_arg4 ∉ hostOps2_2_W)
    _ = W5 m ρ c (Proc.devRef .tc main_arg4) := StableHlo.after_of_writes_sub hostOps2_1 _ hostOps2_1_writes (by decide : main_arg4 ∉ hostOps2_1_W)
    _ = W4 m ρ c (Proc.devRef .tc main_arg4) := StableHlo.after_of_writes_sub hostOps2 _ hostOps2_writes (by decide : main_arg4 ∉ hostOps2_W)
    _ = W3 m ρ c (Proc.devRef .tc main_arg4) := (W4_arr m ρ c 1).trans (((dat1 (U3 m ρ) c).arrAt_in 1 rfl _).trans (A_eq1 (U3 m ρ) c 1))
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps2_4 _ hostOps2_4_writes (by decide : main_arg5 ∉ hostOps2_4_W)
    _ = W7 m ρ c (Proc.devRef .tc main_arg5) := StableHlo.after_of_writes_sub hostOps2_3 _ hostOps2_3_writes (by decide : main_arg5 ∉ hostOps2_3_W)
    _ = W6 m ρ c (Proc.devRef .tc main_arg5) := StableHlo.after_of_writes_sub hostOps2_2 _ hostOps2_2_writes (by decide : main_arg5 ∉ hostOps2_2_W)
    _ = W5 m ρ c (Proc.devRef .tc main_arg5) := StableHlo.after_of_writes_sub hostOps2_1 _ hostOps2_1_writes (by decide : main_arg5 ∉ hostOps2_1_W)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps2_4 _ hostOps2_4_writes (by decide : main_arg6 ∉ hostOps2_4_W)
    _ = W7 m ρ c (Proc.devRef .tc main_arg6) := StableHlo.after_of_writes_sub hostOps2_3 _ hostOps2_3_writes (by decide : main_arg6 ∉ hostOps2_3_W)
    _ = W6 m ρ c (Proc.devRef .tc main_arg6) := StableHlo.after_of_writes_sub hostOps2_2 _ hostOps2_2_writes (by decide : main_arg6 ∉ hostOps2_2_W)
    _ = W5 m ρ c (Proc.devRef .tc main_arg6) := StableHlo.after_of_writes_sub hostOps2_1 _ hostOps2_1_writes (by decide : main_arg6 ∉ hostOps2_1_W)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 2).trans (((dat1 (U3 m ρ) c).arrAt_in 2 rfl _).trans (A_eq1 (U3 m ρ) c 2))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps2_4 _ hostOps2_4_writes (by decide : main_arg7 ∉ hostOps2_4_W)
    _ = W7 m ρ c (Proc.devRef .tc main_arg7) := StableHlo.after_of_writes_sub hostOps2_3 _ hostOps2_3_writes (by decide : main_arg7 ∉ hostOps2_3_W)
    _ = W6 m ρ c (Proc.devRef .tc main_arg7) := StableHlo.after_of_writes_sub hostOps2_2 _ hostOps2_2_writes (by decide : main_arg7 ∉ hostOps2_2_W)
    _ = W5 m ρ c (Proc.devRef .tc main_arg7) := StableHlo.after_of_writes_sub hostOps2_1 _ hostOps2_1_writes (by decide : main_arg7 ∉ hostOps2_1_W)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev admH : (p : Fin 2) → (pcfgs (F := F) p).Adm := fun p => (cfgs p).toPCfg_adm
/-- Every pipeline's proof data, each at its entry contents. -/
def pdats : (p : Fin 2) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment, from the contents `W`, `RH` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev TH (c : Dev nD) : sProp 𝕄 := iprop(StableHlo.held (c : Thread nD τ) (Pipeline.ucRefs τ sig) (W9 m ρ c) ∗ ∃ r, prngReg c r)

/-! ## The pipelines as segments -/

set_option backward.isDefEq.respectTransparency.types false in
/-- Pipeline 0 over the thread state: entered from every unscoped buffer at `W1`, left at `W2`. Its arrays are
    split out of the unscoped buffers at entry and put back at the exit contents; the generator register goes into the
    pipeline's invariant and comes back; nothing is owed; the kernel names no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W3`, left at `W4`. Its arrays are
    split out of the unscoped buffers at entry and put back at the exit contents; the generator register goes into the
    pipeline's invariant and comes back; nothing is owed; the kernel names no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m ρ) () defs₀ 𝒱H LH lvH) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)) ]

set_option backward.isDefEq.respectTransparency.types false in
/-- THE RUN: from any memory with zero counters every weakly fair execution of @main terminates, nothing faulting, and
    in every final memory each unscoped buffer holds the last boundary's contents — read here at the result buffer and
    at the eight arguments. -/
theorem run : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) admH (pdats m ρ) () cellOf_inj emb₁ defs₀ 𝒱H LH lvH m ρ main (segsH m ρ)
    (fun c Q => by
      rewrite [main_chain c, Pipeline.Seg.run_eq_chain,
        show (segsH m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ (∃ r, prngReg c r) ∗ ∃ W, owes (c : Thread nD τ) (0 : CellTallies nD τ sig Unit) W) : sProp 𝕄)
          ⊢ iprop((StableHlo.held (c : Thread nD τ) (Pipeline.ucRefs τ sig) (W9 m ρ c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Hand

end
-- ==== Proof.RefImports.lean ====
/-
  The reference's run and its operations read at an index, gathered under one name for the modules that state what
  the reference computes.
-/
import proofs.«171836_j33200097198456_2_alg».proof.Proof.Gen.ReferenceIdeal.Run
import proofs.«171836_j33200097198456_2_alg».proof.Proof.Gen.ReferenceIdeal.Read
-- ==== Proof.Math.Spec.lean ====
/-
  The hidden activations as a function of the row-flattened features: entry (r, d) is the relu of row r's product with
  column d of the weights plus the bias — max (∑ c, X r c · w c d + b d) 0 on the extended reals.
-/
import Idealize.ShloMosaic.PureOps.Ideal
import Idealize.ShloMosaic.Lib.ValueIdx

noncomputable section

namespace Cert.Bridge

/-- Entry (r, d) of the hidden activations: relu of the row's product with the weights plus the bias. -/
def hiddenAt (X : Fin 25088 → Fin 512 → EReal) (w : Fin 512 → Fin 256 → EReal) (b : Fin 256 → EReal) (r : Fin 25088) (d : Fin 256) : EReal :=
  max ((∑ c : Fin 512, X r c * w c d) + b d) 0

end Cert.Bridge

end
-- ==== Proof.Math.Defs.lean ====
/-
  The features read as a matrix of rows, and the flattened hidden activations, as plain functions on extended reals.

  The features are an array [16, 224, 7, 512]; read row-major as a matrix [25088, 512] its row r = (i*224 + h)*7 + w'
  is the feature vector at (i, h, w').  The flattened activations [16, 401408] hold, at (i, K), the hidden activation
  of row i*1568 + K/256 (1568 = 224*7 rows per image) at column K % 256.
-/
import proofs.«171836_j33200097198456_2_alg».proof.KernelIdeal
import proofs.«171836_j33200097198456_2_alg».proof.Proof.Math.Spec
import Idealize.ShloMosaic.Lib.ValueIdx

noncomputable section

namespace Cert.Bridge

open Idealize.ShloMosaic Idealize.ShloMosaic.ValueIdx
open scoped BigOperators

/-- row r of the features read as a [25088,512] matrix (row-major: r = (i*224 + h)*7 + w') -/
def xrows (x : FVec Ideal Cert.KernelIdeal.S16x224x7x512 .f32) : Fin 25088 → Fin 512 → EReal :=
  fun r c => x (ix4 (⟨r.val / 1568, by omega⟩ : Fin 16) (⟨r.val / 7 % 224, by omega⟩ : Fin 224)
    (⟨r.val % 7, by omega⟩ : Fin 7) c)

/-- the flattened hidden activations: entry (i,K) is hiddenAt at row i*1568 + K/256 and column K%256 -/
def flatAct (x : FVec Ideal Cert.KernelIdeal.S16x224x7x512 .f32) (w : Fin 512 → Fin 256 → EReal)
    (b : Fin 256 → EReal) (i : Fin 16) (K : Fin 401408) : EReal :=
  hiddenAt (xrows x) w b ⟨i.val*1568 + K.val/256, by omega⟩ ⟨K.val % 256, by omega⟩

end Cert.Bridge
-- ==== Proof.Math.RefHidden.lean ====
/-
  The reference's hidden activations: its first eight operations as one function of the features, the weights and the
  bias, and that function read at an index.

  The reference contracts the channel axis of the features [16, 224, 7, 512] with the weights [512, 256], adds the bias
  along the last axis, takes the maximum with zero and reshapes [16, 224, 7, 256] to [16, 401408].  The reshape keeps
  row-major order, so entry (i, K) of the result is the entry of the [16, 224, 7, 256] array at
  (i, K/1792, K/256 % 7, K % 256); its feature vector is row i*1568 + K/256 of the features read as [25088, 512]
  (1792 = 7*256 and 1568 = 224*7), so the entry is the hidden activation of that row at column K % 256.
-/
import proofs.«171836_j33200097198456_2_alg».proof.Proof.RefImports
import proofs.«171836_j33200097198456_2_alg».proof.Proof.Math.Defs

noncomputable section

namespace Cert.Bridge

open Cert.ReferenceIdeal Cert.ReferenceIdeal.Gen Idealize.ShloMosaic Idealize.ShloMosaic.ValueIdx
open scoped BigOperators

/-- The reference's flattened hidden activations as a function of its three operands: the term its run composes for
    the buffer that both big products read. -/
def refFlat (x : FVec Ideal S16x224x7x512 .f32) (w : FVec Ideal S512x256 .f32) (b : FVec Ideal S256 .f32) :
    FVec Ideal S16x401408 .f32 :=
  shapeCast _ (maximumf (addf (Host.dotGeneral dot_S16x224x7x512_S512x256_S16x224x7x256_3_0_012_1_n_n none x w) (broadcastInDim S16x224x7x256 ![0, 1, 2, 3] bcast_S1x1x1x256_S16x224x7x256_0_1_2_3 (broadcastInDim S1x1x1x256 ![3] bcast_S256_S1x1x1x256_3 b))) (broadcastInDim S16x224x7x256 ![] bcast_S_S16x224x7x256 (constant S_ .f32 0x00000000#32))) shapeCasts_S16x224x7x256_S16x401408

/-- It is the generated reading's value of that buffer: the two unfold to one term. -/
theorem refFlat_eq_val (x : FVec Ideal S16x224x7x512 .f32) (w : FVec Ideal S512x256 .f32) (b : FVec Ideal S256 .f32) :
    refFlat x w b = Read.val_main_v5 (F := Ideal) x w b := rfl

/-- The position of entry (i, K) in the [16, 224, 7, 256] array, contracted at channel k: the features' index. -/
theorem lidx_flat (i : Fin 16) (K : Fin 401408) (k : Fin 512) :
    Read.lidx_main_v0 (Read.idx_main_v5 (ix2 i K)) k
      = ix4 (⟨(i.val*1568 + K.val/256) / 1568, by omega⟩ : Fin 16) (⟨(i.val*1568 + K.val/256) / 7 % 224, by omega⟩ : Fin 224)
          (⟨(i.val*1568 + K.val/256) % 7, by omega⟩ : Fin 7) k := by
  have hi := i.isLt
  have hK := K.isLt
  funext a
  match a with
  | ⟨0, _⟩ => exact Fin.ext (by show (i.val * 401408 + K.val) / 401408 = (i.val*1568 + K.val/256) / 1568; omega)
  | ⟨1, _⟩ => exact Fin.ext (by show (i.val * 401408 + K.val) / 1792 % 224 = (i.val*1568 + K.val/256) / 7 % 224; omega)
  | ⟨2, _⟩ => exact Fin.ext (by show (i.val * 401408 + K.val) / 256 % 7 = (i.val*1568 + K.val/256) % 7; omega)
  | ⟨3, _⟩ => rfl

/-- … and the weights' index. -/
theorem ridx_flat (i : Fin 16) (K : Fin 401408) (k : Fin 512) :
    Read.ridx_main_v0 (Read.idx_main_v5 (ix2 i K)) k = ix2 k (⟨K.val % 256, by omega⟩ : Fin 256) := by
  have hi := i.isLt
  have hK := K.isLt
  funext a
  match a with
  | ⟨0, _⟩ => rfl
  | ⟨1, _⟩ => exact Fin.ext (by show (i.val * 401408 + K.val) % 256 = K.val % 256; omega)

/-- … and the bias's index. -/
theorem bidx_flat (i : Fin 16) (K : Fin 401408) :
    Read.idx_main_v1 (Read.idx_main_v2 (Read.idx_main_v5 (ix2 i K))) = ix1 (⟨K.val % 256, by omega⟩ : Fin 256) := by
  have hi := i.isLt
  have hK := K.isLt
  funext a
  match a with
  | ⟨0, _⟩ => exact Fin.ext (by show (i.val * 401408 + K.val) % 256 = K.val % 256; omega)

/-- The reference's flattened hidden activations at (i, K): the hidden activation of row i*1568 + K/256 of the
    features at column K % 256. -/
theorem refFlat_apply (x : FVec Ideal S16x224x7x512 .f32) (w : FVec Ideal S512x256 .f32) (b : FVec Ideal S256 .f32)
    (i : Fin 16) (K : Fin 401408) :
    refFlat x w b (ix2 i K) = flatAct x (fun c d => w (ix2 c d)) (fun d => b (ix1 d)) i K := by
  rw [refFlat_eq_val, Read.val_main_v5_apply, Read.val_main_v4_apply, Read.val_main_v3_apply,
    Read.val_main_v0_apply, Read.val_main_v2_apply, Read.val_main_v1_apply, Read.val_main_call0_v0_apply,
    Read.val_main_call0_cst_apply]
  unfold flatAct hiddenAt xrows
  show max ((∑ k : Fin 512, x (Read.lidx_main_v0 (Read.idx_main_v5 (ix2 i K)) k)
        * w (Read.ridx_main_v0 (Read.idx_main_v5 (ix2 i K)) k))
      + b (Read.idx_main_v1 (Read.idx_main_v2 (Read.idx_main_v5 (ix2 i K))))) (Ideal.ofBits .f32 0x00000000#32) = _
  rw [Ideal.ofBits_zero_f32, bidx_flat]
  refine congrArg (fun s => max (s + _) 0) (Finset.sum_congr rfl fun k _ => ?_)
  rw [lidx_flat, ridx_flat]

end Cert.Bridge
-- ==== Proof.KI.Tail.lean ====
/-
  The last stretch of both programs. After the class scores [16, 64] and the box regressors [16, 128] are formed, the
  kernel program and the reference apply the same operations to them and to the regions [16, 32, 4]: the softmax over the
  two halves of the class scores (second half kept), the regions scaled by 16, the regressors re-laid as [16, 32, 4], the
  box decoding (a product and a difference for x, the clipped exponentials for the two sizes), and the five columns joined
  into [16, 32, 5]. `tailOf` is that function, written once; each program's result is `tailOf` of its own scores,
  regressors and regions, so equal scores and regressors give equal results and the tail is never opened.
-/
import proofs.«171836_j33200097198456_2_alg».proof.Proof.KI.Run
import proofs.«171836_j33200097198456_2_alg».proof.Proof.RefImports
import proofs.«171836_j33200097198456_2_alg».proof.Proof.Math.RefHidden
import Idealize.ShloMosaic.Lib.StableHlo.Run

set_option maxRecDepth 16384

noncomputable section

namespace Cert.Bridge

open Idealize.ShloMosaic Idealize.ShloMosaic.TcCoe Idealize.SL.Sem
open Cert.ReferenceIdeal Cert.ReferenceIdeal.Gen

/-- The shared tail: the result [16, 32, 5] from the class scores, the box regressors and the regions. -/
def tailOf (cls : FVec Ideal S16x64 .f32) (bbox : FVec Ideal S16x128 .f32) (roi : FVec Ideal S16x32x4 .f32) : FVec Ideal S16x32x5 .f32 :=
  concatenate S16x32x5 2 [⟨S16x32x1, (broadcastInDim S16x32x1 ![0, 1] bcast_S16x32_S16x32x1_0_1 (subf (shapeCast _ (extractStridedSlice S16x32x1 ![0, 0, 0] (mulf roi (broadcastInDim S16x32x4 ![] bcast_S_S16x32x4 (constant S_ .f32 0x41800000#32))) slices_S16x32x4_S16x32x1_0_0_0) shapeCasts_S16x32x1_S16x32) (mulf (shapeCast _ (extractStridedSlice S16x32x1 ![0, 0, 1] (transpose S16x32x4 [0, 2, 1] (shapeCast _ bbox shapeCasts_S16x128_S16x4x32) transposes_S16x4x32_S16x32x4_0_2_1) slices_S16x32x4_S16x32x1_0_0_1) shapeCasts_S16x32x1_S16x32) (shapeCast _ (extractStridedSlice S16x32x1 ![0, 0, 3] (mulf roi (broadcastInDim S16x32x4 ![] bcast_S_S16x32x4 (constant S_ .f32 0x41800000#32))) slices_S16x32x4_S16x32x1_0_0_3) shapeCasts_S16x32x1_S16x32))))⟩, ⟨S16x32x1, (broadcastInDim S16x32x1 ![0, 1] bcast_S16x32_S16x32x1_0_1 (shapeCast _ (extractStridedSlice S16x32x1 ![0, 0, 1] (mulf roi (broadcastInDim S16x32x4 ![] bcast_S_S16x32x4 (constant S_ .f32 0x41800000#32))) slices_S16x32x4_S16x32x1_0_0_1) shapeCasts_S16x32x1_S16x32))⟩, ⟨S16x32x1, (broadcastInDim S16x32x1 ![0, 1] bcast_S16x32_S16x32x1_0_1 (mulf (shapeCast _ (extractStridedSlice S16x32x1 ![0, 0, 2] (mulf roi (broadcastInDim S16x32x4 ![] bcast_S_S16x32x4 (constant S_ .f32 0x41800000#32))) slices_S16x32x4_S16x32x1_0_0_2) shapeCasts_S16x32x1_S16x32) (Host.exp (minimumf (broadcastInDim S16x32 ![] bcast_S_S16x32 (id (constant S_ .f32 0x41200000#32))) (maximumf (broadcastInDim S16x32 ![] bcast_S_S16x32 (id (constant S_ .f32 0xC1200000#32))) (shapeCast _ (extractStridedSlice S16x32x1 ![0, 0, 2] (transpose S16x32x4 [0, 2, 1] (shapeCast _ bbox shapeCasts_S16x128_S16x4x32) transposes_S16x4x32_S16x32x4_0_2_1) slices_S16x32x4_S16x32x1_0_0_2) shapeCasts_S16x32x1_S16x32))))))⟩, ⟨S16x32x1, (broadcastInDim S16x32x1 ![0, 1] bcast_S16x32_S16x32x1_0_1 (mulf (shapeCast _ (extractStridedSlice S16x32x1 ![0, 0, 3] (mulf roi (broadcastInDim S16x32x4 ![] bcast_S_S16x32x4 (constant S_ .f32 0x41800000#32))) slices_S16x32x4_S16x32x1_0_0_3) shapeCasts_S16x32x1_S16x32) (Host.exp (minimumf (broadcastInDim S16x32 ![] bcast_S_S16x32 (id (constant S_ .f32 0x41200000#32))) (maximumf (broadcastInDim S16x32 ![] bcast_S_S16x32 (id (constant S_ .f32 0xC1200000#32))) (shapeCast _ (extractStridedSlice S16x32x1 ![0, 0, 3] (transpose S16x32x4 [0, 2, 1] (shapeCast _ bbox shapeCasts_S16x128_S16x4x32) transposes_S16x4x32_S16x32x4_0_2_1) slices_S16x32x4_S16x32x1_0_0_3) shapeCasts_S16x32x1_S16x32))))))⟩, ⟨S16x32x1, (broadcastInDim S16x32x1 ![0, 1] bcast_S16x32_S16x32x1_0_1 (shapeCast _ (extractStridedSlice S1x16x32 ![1, 0, 0] (Host.divf (Host.exp (subf (concatenate S2x16x32 0 [⟨S1x16x32, (broadcastInDim S1x16x32 ![1, 2] bcast_S16x32_S1x16x32_1_2 (extractStridedSlice S16x32 ![0, 0] cls slices_S16x64_S16x32_0_0))⟩, ⟨S1x16x32, (broadcastInDim S1x16x32 ![1, 2] bcast_S16x32_S1x16x32_1_2 (extractStridedSlice S16x32 ![0, 32] cls slices_S16x64_S16x32_0_32))⟩] concatenates_S1x16x32_S1x16x32_S2x16x32_d0) (broadcastInDim S2x16x32 ![0, 1, 2] bcast_S1x16x32_S2x16x32_0_1_2 (broadcastInDim S1x16x32 ![1, 2] bcast_S16x32_S1x16x32_1_2 (maximumf (broadcastInDim S16x32 ![] bcast_S_S16x32 (constant S_ .f32 0xFF800000#32)) (Host.reduce FloatOps.maximumf (concatenate S2x16x32 0 [⟨S1x16x32, (broadcastInDim S1x16x32 ![1, 2] bcast_S16x32_S1x16x32_1_2 (extractStridedSlice S16x32 ![0, 0] cls slices_S16x64_S16x32_0_0))⟩, ⟨S1x16x32, (broadcastInDim S1x16x32 ![1, 2] bcast_S16x32_S1x16x32_1_2 (extractStridedSlice S16x32 ![0, 32] cls slices_S16x64_S16x32_0_32))⟩] concatenates_S1x16x32_S1x16x32_S2x16x32_d0) (constant S_ .f32 0xFF800000#32) reducesTo_S2x16x32_S16x32_d0 h_S_)))))) (broadcastInDim S2x16x32 ![0, 1, 2] bcast_S1x16x32_S2x16x32_0_1_2 (broadcastInDim S1x16x32 ![1, 2] bcast_S16x32_S1x16x32_1_2 (Host.reduceAdd (Host.exp (subf (concatenate S2x16x32 0 [⟨S1x16x32, (broadcastInDim S1x16x32 ![1, 2] bcast_S16x32_S1x16x32_1_2 (extractStridedSlice S16x32 ![0, 0] cls slices_S16x64_S16x32_0_0))⟩, ⟨S1x16x32, (broadcastInDim S1x16x32 ![1, 2] bcast_S16x32_S1x16x32_1_2 (extractStridedSlice S16x32 ![0, 32] cls slices_S16x64_S16x32_0_32))⟩] concatenates_S1x16x32_S1x16x32_S2x16x32_d0) (broadcastInDim S2x16x32 ![0, 1, 2] bcast_S1x16x32_S2x16x32_0_1_2 (broadcastInDim S1x16x32 ![1, 2] bcast_S16x32_S1x16x32_1_2 (maximumf (broadcastInDim S16x32 ![] bcast_S_S16x32 (constant S_ .f32 0xFF800000#32)) (Host.reduce FloatOps.maximumf (concatenate S2x16x32 0 [⟨S1x16x32, (broadcastInDim S1x16x32 ![1, 2] bcast_S16x32_S1x16x32_1_2 (extractStridedSlice S16x32 ![0, 0] cls slices_S16x64_S16x32_0_0))⟩, ⟨S1x16x32, (broadcastInDim S1x16x32 ![1, 2] bcast_S16x32_S1x16x32_1_2 (extractStridedSlice S16x32 ![0, 32] cls slices_S16x64_S16x32_0_32))⟩] concatenates_S1x16x32_S1x16x32_S2x16x32_d0) (constant S_ .f32 0xFF800000#32) reducesTo_S2x16x32_S16x32_d0 h_S_)))))) (constant S_ .f32 0x00000000#32) reducesTo_S2x16x32_S16x32_d0 h_S_)))) slices_S2x16x32_S1x16x32_1_0_0) shapeCasts_S1x16x32_S16x32))⟩] concatenates_S16x32x1_S16x32x1_S16x32x1_S16x32x1_S16x32x1_S16x32x5_d2

/-- The reference's class scores: the whole product of the flattened hidden activations with the class weights, plus the bias. -/
def refCls (x : FVec Ideal S16x224x7x512 .f32) (w : FVec Ideal S512x256 .f32) (b : FVec Ideal S256 .f32)
    (W : FVec Ideal S401408x64 .f32) (bias : FVec Ideal S64 .f32) : FVec Ideal S16x64 .f32 :=
  addf (Host.dotGeneral dot_S16x401408_S401408x64_S16x64_1_0_0_1_n_n none (refFlat x w b) W)
    (broadcastInDim S16x64 ![0, 1] bcast_S1x64_S16x64_0_1 (broadcastInDim S1x64 ![1] bcast_S64_S1x64_1 bias))

/-- The reference's box regressors, likewise. -/
def refBbox (x : FVec Ideal S16x224x7x512 .f32) (w : FVec Ideal S512x256 .f32) (b : FVec Ideal S256 .f32)
    (W : FVec Ideal S401408x128 .f32) (bias : FVec Ideal S128 .f32) : FVec Ideal S16x128 .f32 :=
  addf (Host.dotGeneral dot_S16x401408_S401408x128_S16x128_1_0_0_1_n_n none (refFlat x w b) W)
    (broadcastInDim S16x128 ![0, 1] bcast_S1x128_S16x128_0_1 (broadcastInDim S1x128 ![1] bcast_S128_S1x128_1 bias))

set_option maxHeartbeats 4000000 in
/-- The reference's result is the tail of its scores, regressors and regions. -/
theorem ref_tail (m' : (ℓ : Loc nD τ sig) → Buf (Elt Ideal) ℓ) (c : Dev nD) :
    Cert.ReferenceIdeal.Value.res_main_v73 (F := Ideal) m' c
      = tailOf (refCls (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)))
          (refBbox (m' ((c.tc : Thread nD τ).loc main_arg0)) (m' ((c.tc : Thread nD τ).loc main_arg2)) (m' ((c.tc : Thread nD τ).loc main_arg3)) (m' ((c.tc : Thread nD τ).loc main_arg6)) (m' ((c.tc : Thread nD τ).loc main_arg7)))
          (m' ((c.tc : Thread nD τ).loc main_arg1)) := by
  unfold Cert.ReferenceIdeal.Value.res_main_v73 tailOf refCls refBbox refFlat
  rfl

end Cert.Bridge

namespace Cert.KernelIdeal.HandTail

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-! ## The arguments the last stretch reads are as launched -/

theorem W4_main_arg1 (c : Dev nD) : W4 m ρ c (Proc.devRef .tc main_arg1) = m ((c : Thread nD τ).loc main_arg1) :=
  (W4_of_ne m ρ c main_arg1 (by decide)).trans
    ((StableHlo.after_of_writes_sub hostOps1 _ hostOps1_writes (by decide : main_arg1 ∉ hostOps1_W)).trans
      ((W2_of_ne m ρ c main_arg1 (by decide)).trans
        (StableHlo.after_of_writes_sub hostOps0 _ hostOps0_writes (by decide : main_arg1 ∉ hostOps0_W))))
theorem W4_main_arg5 (c : Dev nD) : W4 m ρ c (Proc.devRef .tc main_arg5) = m ((c : Thread nD τ).loc main_arg5) :=
  (W4_of_ne m ρ c main_arg5 (by decide)).trans
    ((StableHlo.after_of_writes_sub hostOps1 _ hostOps1_writes (by decide : main_arg5 ∉ hostOps1_W)).trans
      ((W2_of_ne m ρ c main_arg5 (by decide)).trans
        (StableHlo.after_of_writes_sub hostOps0 _ hostOps0_writes (by decide : main_arg5 ∉ hostOps0_W))))
theorem W4_main_arg7 (c : Dev nD) : W4 m ρ c (Proc.devRef .tc main_arg7) = m ((c : Thread nD τ).loc main_arg7) :=
  (W4_of_ne m ρ c main_arg7 (by decide)).trans
    ((StableHlo.after_of_writes_sub hostOps1 _ hostOps1_writes (by decide : main_arg7 ∉ hostOps1_W)).trans
      ((W2_of_ne m ρ c main_arg7 (by decide)).trans
        (StableHlo.after_of_writes_sub hostOps0 _ hostOps0_writes (by decide : main_arg7 ∉ hostOps0_W))))

/-- The kernel program's class scores from the contents `Wv` of its buffers after the second pipeline: the two halves of
    the partial result added from zero, plus the bias. -/
def kerCls (Wv : Valuation τ sig (Elt Ideal)) : FVec Ideal S16x64 .f32 :=
  addf (Host.reduceAdd (F := Ideal) (Wv (Proc.devRef .tc main_v4_0)) (constant (F := Ideal) S_ .f32 0x00000000#32) reducesTo_S2x16x64_S16x64_d0 h_S_)
    (broadcastInDim S16x64 ![0, 1] bcast_S1x64_S16x64_0_1 (broadcastInDim S1x64 ![1] bcast_S64_S1x64_1 (Wv (Proc.devRef .tc main_arg5))))

/-- Its box regressors, likewise. -/
def kerBbox (Wv : Valuation τ sig (Elt Ideal)) : FVec Ideal S16x128 .f32 :=
  addf (Host.reduceAdd (F := Ideal) (Wv (Proc.devRef .tc main_v4_1)) (constant (F := Ideal) S_ .f32 0x00000000#32) reducesTo_S2x16x128_S16x128_d0 h_S_)
    (broadcastInDim S16x128 ![0, 1] bcast_S1x128_S16x128_0_1 (broadcastInDim S1x128 ![1] bcast_S128_S1x128_1 (Wv (Proc.devRef .tc main_arg7))))

set_option maxHeartbeats 40000000 in
/-- The last five stretches of host operations, from any contents `Wv` of the buffers, leave the result buffer at the
    tail of the scores, the regressors and the regions read off `Wv`. -/
theorem after_tail (Wv : Valuation τ sig (Elt Ideal)) :
    StableHlo.after hostOps2_4 (StableHlo.after hostOps2_3 (StableHlo.after hostOps2_2 (StableHlo.after hostOps2_1 (StableHlo.after hostOps2 Wv))))
        (Proc.devRef .tc main_v72)
      = Cert.Bridge.tailOf (kerCls Wv) (kerBbox Wv) (Wv (Proc.devRef .tc main_arg1)) := by
  after_results_simp <;> rfl <;> (unfold Cert.Bridge.tailOf kerCls kerBbox; rfl)

end Cert.KernelIdeal.HandTail

end
-- ==== Proof.KI.Between.lean ====
/-
  The host operations between the pipelines, read: the first pipeline finds the features flattened to rows and the weights
  with their format changed; the second finds the first one's result flattened to [16, 401408] and the two big weight
  matrices as launched.
-/
import proofs.«171836_j33200097198456_2_alg».proof.Proof.KI.Run
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The first pipeline's feature array: the features flattened to rows. -/
theorem U1_v0 (c : Dev nD) : U1 m ρ c main_v0 = shapeCast S25088x512 (m ((c : Thread nD τ).loc main_arg0)) shapeCasts_S16x224x7x512_S25088x512 := by
  show StableHlo.after hostOps0 (W0 m ρ c) (Proc.devRef .tc main_v0) = _
  after_results <;> rfl

/-- Its weights: the convolution weights, their format changed. -/
theorem U1_v1 (c : Dev nD) : U1 m ρ c main_v1 = truncf .bf16 (m ((c : Thread nD τ).loc main_arg2)) bitsLt_bf16_f32 := by
  show StableHlo.after hostOps0 (W0 m ρ c) (Proc.devRef .tc main_v1) = _
  after_results <;> rfl

/-- Its bias: as launched. -/
theorem U1_arg3 (c : Dev nD) : U1 m ρ c main_arg3 = m ((c : Thread nD τ).loc main_arg3) :=
  StableHlo.after_of_writes_sub hostOps0 _ hostOps0_writes (by decide : main_arg3 ∉ hostOps0_W)

/-- The second pipeline's activations: the first pipeline's result flattened to [16, 401408]. -/
theorem U3_v3 (c : Dev nD) : U3 m ρ c main_v3 = shapeCast S16x401408 (W2 m ρ c (Proc.devRef .tc main_v2)) shapeCasts_S25088x256_S16x401408 := by
  show StableHlo.after hostOps1 (W2 m ρ c) (Proc.devRef .tc main_v3) = _
  after_results <;> rfl

/-- Its two weight matrices: as launched. -/
theorem U3_arg4 (c : Dev nD) : U3 m ρ c main_arg4 = m ((c : Thread nD τ).loc main_arg4) :=
  (StableHlo.after_of_writes_sub hostOps1 _ hostOps1_writes (by decide : main_arg4 ∉ hostOps1_W)).trans
    ((W2_of_ne m ρ c main_arg4 (by decide)).trans
      (StableHlo.after_of_writes_sub hostOps0 _ hostOps0_writes (by decide : main_arg4 ∉ hostOps0_W)))
theorem U3_arg6 (c : Dev nD) : U3 m ρ c main_arg6 = m ((c : Thread nD τ).loc main_arg6) :=
  (StableHlo.after_of_writes_sub hostOps1 _ hostOps1_writes (by decide : main_arg6 ∉ hostOps1_W)).trans
    ((W2_of_ne m ρ c main_arg6 (by decide)).trans
      (StableHlo.after_of_writes_sub hostOps0 _ hostOps0_writes (by decide : main_arg6 ∉ hostOps0_W)))

end Cert.KernelIdeal.Hand

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«171836_j33200097198456_2_alg».proof.Proof.LibPlainDot
import proofs.«171836_j33200097198456_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.KI.Value0.lean ====
/-
  What the first pipeline leaves in its result array, at the exact reading of floats: entry (r, d) is
  max (∑ k, X r k · w k d + b d) 0 of the row-flattened features X, the weights w and the bias b as the pipeline finds
  them. A grid point's body computes that for its 1792 rows (the matrix product into the zero tile is the plain sum over
  the 512 contracted entries; the bias row is repeated down the rows; format changes are the identity); the 14 row blocks
  tile the array, so the array after the pipeline is that one function of the three input arrays.
-/
import proofs.«171836_j33200097198456_2_alg».proof.Proof.KI.Region0
import proofs.«171836_j33200097198456_2_alg».proof.Proof.Math.Spec
import proofs.«171836_j33200097198456_2_alg».proof.Proof.LibZeroAccDots
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

theorem hz2 : (![0, 0] : Fin 2 → Nat) = fun _ => 0 := funext fun a => by fin_cases a <;> rfl
theorem hz1 : (![0] : Fin 1 → Nat) = fun _ => 0 := funext fun a => by fin_cases a <;> rfl

/-! ## The body's arithmetic at an index -/

/-- Entry (p, q) of what the body stores: the relu of row p of the feature block times column q of the weights, plus
    the bias entry q. -/
theorem pay0_apply (x0 : FVec Ideal S1792x512 .f32) (x1 : FVec Ideal S512x256 .bf16) (x2 : FVec Ideal S256 .f32) (p : Fin 1792) (q : Fin 256) :
    k0_pay1 (F := Ideal) x0 x1 x2 (ix2 p q) = max ((∑ k : Fin 512, x0 (ix2 p k) * x1 (ix2 k q)) + x2 (ix1 q)) 0 := by
  have hsum : FloatOps.matmul dot_S1792x512_S512x256_S1792x256_1_0_0_1_n_n none
        (truncf (F := Ideal) .bf16 (shapeCast S1792x512 x0 shapeCasts_S1792x512_S1792x512 : FVec Ideal S1792x512 .f32) bitsLt_bf16_f32)
        (shapeCast S512x256 x1 shapeCasts_S512x256_S512x256 : FVec Ideal S512x256 .bf16) (constant (F := Ideal) S1792x256 .f32 0x00000000#32) (ix2 p q)
      = ∑ k : Fin 512, x0 (ix2 p k) * x1 (ix2 k q) := by
    refine (Cert.ZeroAccDots.rows_columns dot_S1792x512_S512x256_S1792x256_1_0_0_1_n_n rfl rfl rfl rfl rfl rfl rfl rfl none _ _ p q).trans ?_
    refine Finset.sum_congr rfl fun k _ => ?_
    rw [truncf_apply, shapeCast_self, shapeCast_self]
  have hbias : broadcastTo S1792x256 (shapeCast S1x256 x2 shapeCasts_S256_S1x256 : FVec Ideal S1x256 .f32) broadcasts_S1x256_S1792x256 (ix2 p q) = x2 (ix1 q) := by
    rw [broadcastTo_1b_ab_apply, shapeCast_a_1a_apply]
  show max (FloatOps.matmul dot_S1792x512_S512x256_S1792x256_1_0_0_1_n_n none
        (truncf (F := Ideal) .bf16 (shapeCast S1792x512 x0 shapeCasts_S1792x512_S1792x512 : FVec Ideal S1792x512 .f32) bitsLt_bf16_f32)
        (shapeCast S512x256 x1 shapeCasts_S512x256_S512x256 : FVec Ideal S512x256 .bf16) (constant (F := Ideal) S1792x256 .f32 0x00000000#32) (ix2 p q)
      + broadcastTo S1792x256 (shapeCast S1x256 x2 shapeCasts_S256_S1x256 : FVec Ideal S1x256 .f32) broadcasts_S1x256_S1792x256 (ix2 p q))
      (Ideal.ofBits .f32 0x00000000#32) = _
  rw [hsum, hbias, Ideal.ofBits_zero_f32]

/-! ## The array the pipeline leaves -/

/-- The result array as one function of the three input arrays. -/
def convOut (X : S25088x512.Idx → Elt Ideal .f32) (Wt : S512x256.Idx → Elt Ideal .bf16) (b : S256.Idx → Elt Ideal .f32) :
    S25088x256.Idx → Elt Ideal .bf16 :=
  fun i => Cert.Bridge.hiddenAt (fun r k => X (ix2 r k)) (fun k d => Wt (ix2 k d)) (fun d => b (ix1 d)) (i 0) (i 1)

variable (V : (c : Dev nD) → (b : Ref sig .tc) → Buf (Elt Ideal) ((c : Thread nD τ).loc b))

/-- The printed index maps over the grid: the feature and result blocks move down the rows with the point, the weights
    and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

set_option maxHeartbeats 1000000 in
/-- WHAT POINT `t` WRITES BACK is block `t` of `convOut` of the arrays as the pipeline finds them. -/
theorem flushed0_eq (c : Dev nD) (t : Fin cfg0.N) :
    (dat0 V c).flushed 3 t = ((cfg0.win 3).blk t).view.read (Elt Ideal) (convOut (V c main_v0) (V c main_v1) (V c main_arg3)) := by
  show (cfg0.win 3).cut (grid0.coords t) ((dat0 V c).after 3 t) = _
  rw [after0_3]
  unfold out0_3
  rw [View.canon_unit_zero hz2]
  simp only [View.ld_unit_zero (S := S1792x512) hz2, View.ld_unit_zero (S := S512x256) hz2, View.ld_unit_zero (S := S256) hz1]
  obtain ⟨e00, e01, e10, e11, e20, e30, e31⟩ := idx_facts0 t
  funext j
  obtain ⟨p, q, rfl⟩ : ∃ (p : Fin 1792) (q : Fin 256), j = ix2 p q := ⟨j 0, j 1, eq_ix2 j⟩
  show k0_pay1 (F := Ideal) (iblk0 V c 0 t) (iblk0 V c 1 t) (iblk0 V c 2 t) (ix2 p q) = _
  refine (pay0_apply (iblk0 V c 0 t) (iblk0 V c 1 t) (iblk0 V c 2 t) p q).trans ?_
  rw [View.read_apply]
  unfold convOut Cert.Bridge.hiddenAt
  have h0 : ∀ k : Fin 512, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 1792 + 1 * p.val = win0_3.index t (0 : Fin 2) * 1792 + 1 * p.val; omega
    | ⟨1, _⟩ => show win0_0.index t (1 : Fin 2) * 512 + 1 * k.val = k.val; omega
  have h1 : ∀ k : Fin 512, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  have h2 : ((cfg0.win 2).blk t).view.emb (ix1 q) = ix1 ((((cfg0.win 3).blk t).view.emb (ix2 p q)) 1) := by
    funext a; apply Fin.ext
    match a with
    | ⟨0, _⟩ => show win0_2.index t (0 : Fin 1) * 256 + 1 * q.val = win0_3.index t (1 : Fin 2) * 256 + 1 * q.val; omega
  have r0 : ∀ k : Fin 512, iblk0 V c 0 t (ix2 p k) = V c main_v0 (ix2 ((((cfg0.win 3).blk t).view.emb (ix2 p q)) 0) k) :=
    fun k => congrArg (V c main_v0) (h0 k)
  have r1 : ∀ k : Fin 512, iblk0 V c 1 t (ix2 k q) = V c main_v1 (ix2 k ((((cfg0.win 3).blk t).view.emb (ix2 p q)) 1)) :=
    fun k => congrArg (V c main_v1) (h1 k)
  have r2 : iblk0 V c 2 t (ix1 q) = V c main_arg3 (ix1 ((((cfg0.win 3).blk t).view.emb (ix2 p q)) 1)) :=
    congrArg (V c main_arg3) h2
  exact congrArg (max · (0 : EReal)) (congrArg₂ (· + ·) (Finset.sum_congr rfl fun k _ => congrArg₂ (· * ·) (r0 k) (r1 k)) r2)

/-- An index of the array is in point `t`'s block iff each coordinate is in the block's range on its axis. -/
theorem mem_blk0 (t : Fin cfg0.N) (i : S25088x256.Idx) :
    i ∈ ((cfg0.win 3).blk t).view.set ↔ ∀ a : Fin 2, win0_3.index t a * S1792x256.size a ≤ (i a).val ∧ (i a).val < win0_3.index t a * S1792x256.size a + S1792x256.size a := by
  show i ∈ ((View.whole main_v2).slice (win0_3.rect t)).set ↔ _
  rw [View.set_slice_whole, Rect.mem_set_unit]
  exact Iff.rfl

/-- Every index of the array is in the block of the point its row falls in. -/
theorem cover0 (i : S25088x256.Idx) : ∃ t : Fin cfg0.N, (cfg0.win 3).flush t = true ∧ i ∈ ((cfg0.win 3).blk t).view.set := by
  have hi0 : (i 0).val < 25088 := (i 0).isLt
  have hi1 : (i 1).val < 256 := (i 1).isLt
  have hN : cfg0.N = 14 := N_0
  let t : Fin cfg0.N := ⟨(i 0).val / 1792, by rw [hN]; omega⟩
  obtain ⟨-, -, -, -, -, e30, e31⟩ := idx_facts0 t
  refine ⟨t, flush0_3 t, ?_⟩
  rw [mem_blk0]
  intro a
  match a with
  | ⟨0, _⟩ =>
    show win0_3.index t (0 : Fin 2) * 1792 ≤ (i 0).val ∧ (i 0).val < win0_3.index t (0 : Fin 2) * 1792 + 1792
    rw [e30]; show (i 0).val / 1792 * 1792 ≤ (i 0).val ∧ (i 0).val < (i 0).val / 1792 * 1792 + 1792; omega
  | ⟨1, _⟩ =>
    show win0_3.index t (1 : Fin 2) * 256 ≤ (i 1).val ∧ (i 1).val < win0_3.index t (1 : Fin 2) * 256 + 256
    rw [e31]; omega

/-- THE ARRAY after the pipeline: `convOut` of the arrays as the pipeline finds them. -/
theorem final0 (c : Dev nD) : (dat0 V c).arrAt 3 cfg0.N = convOut (V c main_v0) (V c main_v1) (V c main_arg3) :=
  (dat0 V c).arrAt_eq_of_cover 3 _ (fun t _ => flushed0_eq V c t) cover0

end Cert.KernelIdeal.HandValue

end
-- ==== Proof.KI.Region1Value.lean ====
/- Region 1, the value facts: what each control case of the accumulating matmul body leaves in the two outputs'
   staging buffers, as the body's payloads of the point's input blocks. At the first point of a half: the point's
   products added to the zero block. At a later point: the point's products added to what the point before left. -/
import proofs.«171836_j33200097198456_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Each case's found pieces, read back as values

In case A each output's buffer is stored to twice through the whole block: the zero block, then the sum whose third
operand is a load of the buffer the zero store covers. In case B once: the sum whose third operand is a load of the
buffer as it arrived. Every load and store is through the whole-block rectangle at zero offsets. -/

theorem out1_A_3_eq (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) :
    out1_A_3 c i arg2 harg2 arg3 harg3 arg4 harg4 arg5 harg5 arg6 harg6 hc0 x0 x1 x2 = k1_pay4 x0 x1 (k1_pay2 (F := F)) := by
  unfold out1_A_3
  rw [View.read_writes_eq_canon _ _ _ (cover1_A_3 c i arg2 harg2 arg3 harg3 arg4 harg4 arg5 harg5 arg6 harg6 hc0 x0 x1 x2)]
  unfold kernelRun1_A
  dsimp only
  sl_unfold_words
  rw [View.canon_cons_unit_zero (S := S1x16x64) hz3, View.readCov_unit_zero (S := S1x16x64) _ hz3]
  simp only [View.readAt_eq_ld, harg2.read_unread, harg3.read_unread, View.ld_unit_zero (S := S16x12544) hz2,
    View.ld_unit_zero (S := S12544x64) hz2]

theorem out1_A_4_eq (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : cond1_0 i)
    (x0 : Vec F S16x12544 .bf16) (x1 : Vec F S12544x64 .f32) (x2 : Vec F S12544x128 .f32) :
    out1_A_4 c i arg2 harg2 arg3 harg3 arg4 harg4 arg5 harg5 arg6 harg6 hc0 x0 x1 x2 = k1_pay5 x0 x2 (k1_pay3 (F := F)) := by
  unfold out1_A_4
  rw [View.read_writes_eq_canon _ _ _ (cover1_A_4 c i arg2 harg2 arg3 harg3 arg4 harg4 arg5 harg5 arg6 harg6 hc0 x0 x1 x2)]
  unfold kernelRun1_A
  dsimp only
  sl_unfold_words
  rw [View.canon_cons_unit_zero (S := S1x16x128) hz3, View.readCov_unit_zero (S := S1x16x128) _ hz3]
  simp only [View.readAt_eq_ld, harg2.read_unread, harg4.read_unread, View.ld_unit_zero (S := S16x12544) hz2,
    View.ld_unit_zero (S := S12544x128) hz2]

theorem out1_B_3_eq (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) :
    out1_B_3 c i arg2 harg2 arg3 harg3 arg4 harg4 arg5 harg5 arg6 harg6 hc0 x0 x1 x2 xo3 xo4 = k1_pay4 x0 x1 xo3 := by
  unfold out1_B_3
  rw [View.read_writes_eq_canon _ _ _ (cover1_B_3 c i arg2 harg2 arg3 harg3 arg4 harg4 arg5 harg5 arg6 harg6 hc0 x0 x1 x2 xo3 xo4)]
  unfold kernelRun1_B
  dsimp only
  rw [View.canon_unit_zero (S := S1x16x64) hz3]
  simp only [View.readAt_eq_ld, harg2.read_unread, harg3.read_unread, harg5.read_unread, View.ld_unit_zero (S := S16x12544) hz2,
    View.ld_unit_zero (S := S12544x64) hz2, View.ld_unit_zero (S := S1x16x64) hz3]

theorem out1_B_4_eq (c : Dev nD) (i : grid1.Coords) (arg2 : Memref sig .tc .vmem S16x12544 .bf16) (harg2 : arg2.IsWhole) (arg3 : Memref sig .tc .vmem S12544x64 .f32) (harg3 : arg3.IsWhole)
    (arg4 : Memref sig .tc .vmem S12544x128 .f32) (harg4 : arg4.IsWhole) (arg5 : Memref sig .tc .vmem S1x16x64 .f32) (harg5 : arg5.IsWhole)
    (arg6 : Memref sig .tc .vmem S1x16x128 .f32) (harg6 : arg6.IsWhole) (hc0 : ¬cond1_0 i)
    (x0 : Vec F S16x12544 .bf16) (x1 : Vec F S12544x64 .f32) (x2 : Vec F S12544x128 .f32) (xo3 : Vec F S1x16x64 .f32) (xo4 : Vec F S1x16x128 .f32) :
    out1_B_4 c i arg2 harg2 arg3 harg3 arg4 harg4 arg5 harg5 arg6 harg6 hc0 x0 x1 x2 xo3 xo4 = k1_pay5 x0 x2 xo4 := by
  unfold out1_B_4
  rw [View.read_writes_eq_canon _ _ _ (cover1_B_4 c i arg2 harg2 arg3 harg3 arg4 harg4 arg5 harg5 arg6 harg6 hc0 x0 x1 x2 xo3 xo4)]
  unfold kernelRun1_B
  dsimp only
  rw [View.canon_unit_zero (S := S1x16x128) hz3]
  simp only [View.readAt_eq_ld, harg2.read_unread, harg4.read_unread, harg6.read_unread, View.ld_unit_zero (S := S16x12544) hz2,
    View.ld_unit_zero (S := S12544x128) hz2, View.ld_unit_zero (S := S1x16x128) hz3]

variable (V : (c : Dev nD) → (b : Ref sig .tc) → Buf (Elt F) ((c : Thread nD τ).loc b))

/-! ## The two value facts -/

/-- At the first point of a half the outputs hold the point's two products added to the zero blocks. -/
theorem outsAt1_first (c : Dev nD) (t : Fin cfg1.N) (h : t.val % 16 = 0) :
    outsAt1 V c t.val t.isLt = (k1_pay4 (iblk1 V c 0 t) (iblk1 V c 1 t) k1_pay2, k1_pay5 (iblk1 V c 0 t) (iblk1 V c 2 t) k1_pay3) := by
  rw [outsAt1_A V c t h, out1_A_3_eq, out1_A_4_eq]

/-- At a later point of a half the outputs hold the point's two products added to what the point before left. -/
theorem outsAt1_next (c : Dev nD) (t : Fin cfg1.N) (h : ¬ t.val % 16 = 0) :
    outsAt1 V c t.val t.isLt = (k1_pay4 (iblk1 V c 0 t) (iblk1 V c 1 t) (outsAt1 V c (t.val - 1) (Nat.lt_of_le_of_lt (Nat.sub_le _ _) t.isLt)).1,
                                 k1_pay5 (iblk1 V c 0 t) (iblk1 V c 2 t) (outsAt1 V c (t.val - 1) (Nat.lt_of_le_of_lt (Nat.sub_le _ _) t.isLt)).2) := by
  rw [outsAt1_B V c t h, out1_B_3_eq, out1_B_4_eq]

end Cert.KernelIdeal.Hand

end
-- ==== Proof.LibResetSum.lean ====
/-
  An accumulator that is reset every `B` steps.

  Steps are numbered `0, 1, 2, …`; step `n` contributes a term `P n` of an additive commutative monoid. At a step whose
  number is divisible by `B` the accumulator is set to the step's term alone; at every other step the term is added to
  what the accumulator holds. `running B P n` is what it holds after step `n`. Then

    * after step `n` it holds the terms of the steps since the last multiple of `B`:
      `running B P n = ∑ i < n % B + 1, P (n − n % B + i)`  (`running_eq`);
    * after the last step of the `c`-th group of `B` steps it holds the sum of the group's `B` terms:
      `running B P (B c + (B − 1)) = ∑ t < B, P (B c + t)`  (`running_last`).

  Only associativity of the sum is used (no subtraction, no cancellation), so the statements apply to the extended
  reals as they are. This is what an output block of a grid computation holds when it is zeroed at the first point of a
  reduction axis of extent `B` and added into at the later ones.
-/
import Mathlib.Algebra.BigOperators.Fin
import Mathlib.Tactic.Common

open scoped BigOperators

namespace Cert.LibResetSum

variable {M : Type*} [AddCommMonoid M]

/-- What the accumulator holds after step `n`. -/
def running (B : ℕ) (P : ℕ → M) : ℕ → M
  | 0 => P 0
  | n + 1 => if (n + 1) % B = 0 then P (n + 1) else running B P n + P (n + 1)

theorem running_zero (B : ℕ) (P : ℕ → M) : running B P 0 = P 0 := rfl

/-- A step divisible by `B` resets. -/
theorem running_reset (B : ℕ) (P : ℕ → M) (n : ℕ) (h : (n + 1) % B = 0) : running B P (n + 1) = P (n + 1) := by
  rw [running, if_pos h]

/-- Every other step adds. -/
theorem running_step (B : ℕ) (P : ℕ → M) (n : ℕ) (h : ¬(n + 1) % B = 0) :
    running B P (n + 1) = running B P n + P (n + 1) := by
  rw [running, if_neg h]

/-- Unless `n + 1` is divisible by `B`, its remainder is the remainder of `n` plus one. -/
theorem succ_mod_of_ne (B n : ℕ) (h : ¬(n + 1) % B = 0) : (n + 1) % B = n % B + 1 := by
  rcases Nat.eq_zero_or_pos B with rfl | hB
  · simp
  · have hr : n % B < B := Nat.mod_lt n hB
    have hn : B * (n / B) + n % B = n := Nat.div_add_mod n B
    by_cases hlt : n % B + 1 < B
    · have e : n + 1 = B * (n / B) + (n % B + 1) := by omega
      calc (n + 1) % B = (B * (n / B) + (n % B + 1)) % B := congrArg (· % B) e
        _ = (n % B + 1) % B := Nat.mul_add_mod _ _ _
        _ = n % B + 1 := Nat.mod_eq_of_lt hlt
    · exfalso
      apply h
      have h1 : n % B + 1 = B := by omega
      have e : n + 1 = B * (n / B + 1) := by rw [Nat.mul_add, Nat.mul_one]; omega
      rw [e]
      exact Nat.mul_mod_right _ _

/-- After step `n` the accumulator holds the terms of the steps since the last multiple of `B`. -/
theorem running_eq (B : ℕ) (P : ℕ → M) : ∀ n : ℕ, running B P n = ∑ i ∈ Finset.range (n % B + 1), P (n - n % B + i)
  | 0 => by simp [running]
  | n + 1 => by
    by_cases h : (n + 1) % B = 0
    · rw [running_reset B P n h, h]
      simp
    · have h1 := succ_mod_of_ne B n h
      have hle : n % B ≤ n := Nat.mod_le n B
      have h2 : n + 1 - (n % B + 1) = n - n % B := by omega
      have h3 : n - n % B + (n % B + 1) = n + 1 := by omega
      rw [running_step B P n h, running_eq B P n, h1, h2,
        Finset.sum_range_succ (fun i => P (n - n % B + i)) (n % B + 1), h3]

/-- After the last step of the `c`-th group of `B` steps it holds the sum of the group's `B` terms. -/
theorem running_last (B : ℕ) (hB : 0 < B) (P : ℕ → M) (c : ℕ) :
    running B P (B * c + (B - 1)) = ∑ t : Fin B, P (B * c + t.val) := by
  have h1 : (B * c + (B - 1)) % B = B - 1 := by
    rw [Nat.mul_add_mod]
    exact Nat.mod_eq_of_lt (by omega)
  have h2 : B * c + (B - 1) - (B - 1) = B * c := Nat.add_sub_cancel ..
  have h3 : B - 1 + 1 = B := Nat.sub_add_cancel hB
  rw [running_eq, h1, h2, h3]
  exact Finset.sum_range fun i => P (B * c + i)

end Cert.LibResetSum
-- ==== Proof.KI.Value1.lean ====
/-
  What the second pipeline leaves in its two result arrays, at the exact reading of floats. Its grid is two halves of
  sixteen points; point n reads column block n of the activations [16, 401408] and row block n of each weight matrix
  (12544 columns / rows each) and adds their product into the half's output block, which the half's first point zeroes
  first and the half's last point writes back. So after point n the block holds the sum of the block products since the
  half's first point, and the array ends, at (h, i, p), at the sum over the half's sixteen blocks of
  ∑ j, A(i, n·12544 + j) · W(n·12544 + j, p).
-/
import proofs.«171836_j33200097198456_2_alg».proof.Proof.KI.Region1Value
import proofs.«171836_j33200097198456_2_alg».proof.Proof.LibZeroAccDots
import proofs.«171836_j33200097198456_2_alg».proof.Proof.LibResetSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue1

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

/-- The printed index maps over the grid: point t reads block t of the activations' columns and of the weights' rows, and
    writes block t / 16 of each result. -/
theorem idx_facts1 : ∀ t : Fin cfg1.N, win1_0.index t (0 : Fin 2) = 0 ∧ win1_0.index t (1 : Fin 2) = t.val
    ∧ win1_1.index t (0 : Fin 2) = t.val ∧ win1_1.index t (1 : Fin 2) = 0
    ∧ win1_2.index t (0 : Fin 2) = t.val ∧ win1_2.index t (1 : Fin 2) = 0
    ∧ (win1_3.index t (0 : Fin 3) = t.val / 16 ∧ win1_3.index t (1 : Fin 3) = 0 ∧ win1_3.index t (2 : Fin 3) = 0)
    ∧ (win1_4.index t (0 : Fin 3) = t.val / 16 ∧ win1_4.index t (1 : Fin 3) = 0 ∧ win1_4.index t (2 : Fin 3) = 0) :=
  (by decide +kernel : ∀ t : Fin grid1.N, _)

/-! ## Output window 3: the partial products with the [401408, 64] weights -/

/-- The zero block the first point of a half stores, at an index. -/
theorem k1_pay2_apply (i : Fin 16) (p : Fin 64) : k1_pay2 (F := Ideal) (ix3 (0 : Fin 1) i p) = 0 := by
  show (shapeCast S1x16x64 (broadcast S16x64 (Ideal.ofBits .f32 0x00000000#32)) shapeCasts_S16x64_S1x16x64 : FVec Ideal S1x16x64 .f32) (ix3 (0 : Fin 1) i p) = 0
  rw [shapeCast_ab_1ab_apply, broadcast_apply, Ideal.ofBits_zero_f32]

/-- Entry (i, p) of what the body stores: what the block held, plus row i of the activations' column block times
    column p of the weights' row block. -/
theorem k1_pay4_apply (v0 : FVec Ideal S16x12544 .bf16) (v2 : FVec Ideal S12544x64 .f32) (v11 : FVec Ideal S1x16x64 .f32) (i : Fin 16) (p : Fin 64) :
    k1_pay4 (F := Ideal) v0 v2 v11 (ix3 (0 : Fin 1) i p) = v11 (ix3 (0 : Fin 1) i p) + ∑ j : Fin 12544, v0 (ix2 i j) * v2 (ix2 j p) := by
  have hsum : FloatOps.matmul dot_S16x12544_S12544x64_S16x64_1_0_0_1_n_n none
        (shapeCast S16x12544 v0 shapeCasts_S16x12544_S16x12544 : FVec Ideal S16x12544 .bf16)
        (truncf (F := Ideal) .bf16 v2 bitsLt_bf16_f32) (constant (F := Ideal) S16x64 .f32 0x00000000#32) (ix2 i p)
      = ∑ j : Fin 12544, v0 (ix2 i j) * v2 (ix2 j p) := by
    refine (Cert.ZeroAccDots.rows_columns dot_S16x12544_S12544x64_S16x64_1_0_0_1_n_n rfl rfl rfl rfl rfl rfl rfl rfl none _ _ i p).trans ?_
    refine Finset.sum_congr rfl fun j _ => ?_
    rw [truncf_apply, shapeCast_self]
  show (shapeCast S1x16x64 (addf (shapeCast S16x64 v11 shapeCasts_S1x16x64_S16x64 : FVec Ideal S16x64 .f32)
      (FloatOps.matmul dot_S16x12544_S12544x64_S16x64_1_0_0_1_n_n none
        (shapeCast S16x12544 v0 shapeCasts_S16x12544_S16x12544 : FVec Ideal S16x12544 .bf16)
        (truncf (F := Ideal) .bf16 v2 bitsLt_bf16_f32) (constant (F := Ideal) S16x64 .f32 0x00000000#32))) shapeCasts_S16x64_S1x16x64 : FVec Ideal S1x16x64 .f32) (ix3 (0 : Fin 1) i p) = _
  rw [shapeCast_ab_1ab_apply, addf_apply, shapeCast_1ab_ab_apply, hsum]

/-- The product of column block `n` of the activations with row block `n` of the weights, at (i, p): the term grid point
    `n` adds. -/
def blockTerm3 (A : S16x401408.Idx → Elt Ideal .bf16) (Wt : S401408x64.Idx → Elt Ideal .f32) (i : Fin 16) (p : Fin 64) (n : ℕ) : EReal :=
  if h : n < 32 then ∑ j : Fin 12544, A (ix2 i (⟨n * 12544 + j.val, by have := j.isLt; omega⟩ : Fin 401408)) * Wt (ix2 (⟨n * 12544 + j.val, by have := j.isLt; omega⟩ : Fin 401408) p) else 0

/-- One point's step: the body turns a block holding `prev` into `prev` plus the point's term. -/
theorem step3 (c : Dev nD) (t : Fin cfg1.N) (prev : FVec Ideal S1x16x64 .f32) (i : Fin 16) (p : Fin 64) :
    k1_pay4 (F := Ideal) (iblk1 V c 0 t) (iblk1 V c 1 t) prev (ix3 (0 : Fin 1) i p)
      = prev (ix3 (0 : Fin 1) i p) + blockTerm3 (V c main_v3) (V c main_arg4) i p t.val := by
  have hN : t.val < 32 := lt_of_lt_of_eq t.isLt (show cfg1.N = 32 from N_1)
  obtain ⟨e00, e01, e10, e11, e20, e21, -, -⟩ := idx_facts1 t
  refine (k1_pay4_apply (iblk1 V c 0 t) (iblk1 V c 1 t) prev i p).trans ?_
  unfold blockTerm3
  rw [dif_pos hN]
  have h0 : ∀ j : Fin 12544, ((cfg1.win 0).blk t).view.emb (ix2 i j) = ix2 i (⟨t.val * 12544 + j.val, by have := j.isLt; omega⟩ : Fin 401408) := fun j => by
    funext a; apply Fin.ext
    match a with
    | ⟨0, _⟩ => show win1_0.index t (0 : Fin 2) * 16 + 1 * i.val = i.val; omega
    | ⟨1, _⟩ => show win1_0.index t (1 : Fin 2) * 12544 + 1 * j.val = t.val * 12544 + j.val; omega
  have h1 : ∀ j : Fin 12544, ((cfg1.win 1).blk t).view.emb (ix2 j p) = ix2 (⟨t.val * 12544 + j.val, by have := j.isLt; omega⟩ : Fin 401408) p := fun j => by
    funext a; apply Fin.ext
    match a with
    | ⟨0, _⟩ => show win1_1.index t (0 : Fin 2) * 12544 + 1 * j.val = t.val * 12544 + j.val; omega
    | ⟨1, _⟩ => show win1_1.index t (1 : Fin 2) * 64 + 1 * p.val = p.val; omega
  have r0 : ∀ j : Fin 12544, iblk1 V c 0 t (ix2 i j) = V c main_v3 (ix2 i (⟨t.val * 12544 + j.val, by have := j.isLt; omega⟩ : Fin 401408)) :=
    fun j => congrArg (V c main_v3) (h0 j)
  have r1 : ∀ j : Fin 12544, iblk1 V c 1 t (ix2 j p) = V c main_arg4 (ix2 (⟨t.val * 12544 + j.val, by have := j.isLt; omega⟩ : Fin 401408) p) :=
    fun j => congrArg (V c main_arg4) (h1 j)
  exact congrArg (prev (ix3 (0 : Fin 1) i p) + ·) (Finset.sum_congr rfl fun j _ => congrArg₂ (· * ·) (r0 j) (r1 j))

/-- What the output block holds after point `n`: the terms since the first point of its half. -/
theorem acc3 (c : Dev nD) (i : Fin 16) (p : Fin 64) : ∀ (n : ℕ) (hn : n < cfg1.N),
    (outsAt1 V c n hn).1 (ix3 (0 : Fin 1) i p) = Cert.LibResetSum.running 16 (blockTerm3 (V c main_v3) (V c main_arg4) i p) n
  | 0, hn => by
    refine (congrArg (fun z => z.1 (ix3 (0 : Fin 1) i p)) (outsAt1_first V c ⟨0, hn⟩ (Nat.zero_mod _))).trans ?_
    refine (step3 V c ⟨0, hn⟩ _ i p).trans ?_
    rw [k1_pay2_apply, zero_add]; rfl
  | n + 1, hn => by
    by_cases h : (n + 1) % 16 = 0
    · refine (congrArg (fun z => z.1 (ix3 (0 : Fin 1) i p)) (outsAt1_first V c ⟨n + 1, hn⟩ h)).trans ?_
      refine (step3 V c ⟨n + 1, hn⟩ _ i p).trans ?_
      rw [k1_pay2_apply, zero_add, Cert.LibResetSum.running_reset 16 _ n h]
    · refine (congrArg (fun z => z.1 (ix3 (0 : Fin 1) i p)) (outsAt1_next V c ⟨n + 1, hn⟩ h)).trans ?_
      refine (step3 V c ⟨n + 1, hn⟩ _ i p).trans ?_
      rw [Cert.LibResetSum.running_step 16 _ n h]
      exact congrArg (· + _) (acc3 c i p n (Nat.lt_of_succ_lt hn))

/-- The array the pipeline leaves: at (h, i, p) the sum of half h's sixteen block terms. -/
def partial3 (A : S16x401408.Idx → Elt Ideal .bf16) (Wt : S401408x64.Idx → Elt Ideal .f32) : S2x16x64.Idx → Elt Ideal .f32 :=
  fun idx => ∑ k : Fin 16, blockTerm3 A Wt (idx 1) (idx 2) (16 * (idx 0).val + k.val)

/-- WHAT A HALF'S LAST POINT WRITES BACK is its block of `partial3`. -/
theorem flushed1_3_eq (c : Dev nD) (t : Fin cfg1.N) (hf : (cfg1.win 3).flush t = true) :
    (dat1 V c).flushed 3 t = ((cfg1.win 3).blk t).view.read (Elt Ideal) (partial3 (V c main_v3) (V c main_arg4)) := by
  have hN : t.val < 32 := lt_of_lt_of_eq t.isLt (show cfg1.N = 32 from N_1)
  have h15 : t.val % 16 = 15 := (flush1_3 t).mp hf
  obtain ⟨-, -, -, -, -, -, e3, e4⟩ := idx_facts1 t
  show (cfg1.win 3).cut (grid1.coords t) ((dat1 V c).after 3 t) = _
  rw [after1_3]
  funext j
  obtain ⟨u, i, p, rfl⟩ : ∃ (u : Fin 1) (i : Fin 16) (p : Fin 64), j = ix3 u i p := ⟨j 0, j 1, j 2, eq_ix3 j⟩
  obtain rfl : u = 0 := Subsingleton.elim _ _
  show (outsAt1 V c t.val t.isLt).1 (ix3 (0 : Fin 1) i p) = _
  rw [acc3 V c i p t.val t.isLt, View.read_apply]
  have hemb : ((cfg1.win 3).blk t).view.emb (ix3 (0 : Fin 1) i p) = ix3 (⟨t.val / 16, by omega⟩ : Fin 2) i p := by
    funext a; apply Fin.ext
    match a with
    | ⟨0, _⟩ => show win1_3.index t (0 : Fin 3) * 1 + 1 * 0 = t.val / 16; omega
    | ⟨1, _⟩ => show win1_3.index t (1 : Fin 3) * 16 + 1 * i.val = i.val; omega
    | ⟨2, _⟩ => show win1_3.index t (2 : Fin 3) * 64 + 1 * p.val = p.val; omega
  rw [hemb]
  unfold partial3
  have hlast := Cert.LibResetSum.running_last 16 (by decide) (blockTerm3 (V c main_v3) (V c main_arg4) i p) (t.val / 16)
  have ht : 16 * (t.val / 16) + (16 - 1) = t.val := by omega
  rw [ht] at hlast
  exact hlast

/-- An index of the array is in point `t`'s block iff each coordinate is in the block's range on its axis. -/
theorem mem_blk1_3 (t : Fin cfg1.N) (i : S2x16x64.Idx) :
    i ∈ ((cfg1.win 3).blk t).view.set ↔ ∀ a : Fin 3, win1_3.index t a * S1x16x64.size a ≤ (i a).val ∧ (i a).val < win1_3.index t a * S1x16x64.size a + S1x16x64.size a := by
  show i ∈ ((View.whole main_v4_0).slice (win1_3.rect t)).set ↔ _
  rw [View.set_slice_whole, Rect.mem_set_unit]
  exact Iff.rfl

/-- Every index of the array is in the block its half's last point writes back. -/
theorem cover1_3 (i : S2x16x64.Idx) : ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 64 := (i 2).isLt
  have hN : cfg1.N = 32 := N_1
  let t : Fin cfg1.N := ⟨16 * (i 0).val + 15, by rw [hN]; omega⟩
  obtain ⟨-, -, -, -, -, -, e3, e4⟩ := idx_facts1 t
  refine ⟨t, (flush1_3 t).mpr (by show (16 * (i 0).val + 15) % 16 = 15; omega), ?_⟩
  rw [mem_blk1_3]
  have ht : (16 * (i 0).val + 15) / 16 = (i 0).val := by omega
  intro a
  match a with
  | ⟨0, _⟩ =>
    show win1_3.index t (0 : Fin 3) * 1 ≤ (i 0).val ∧ (i 0).val < win1_3.index t (0 : Fin 3) * 1 + 1
    have : win1_3.index t (0 : Fin 3) = (16 * (i 0).val + 15) / 16 := e3.1
    omega
  | ⟨1, _⟩ =>
    show win1_3.index t (1 : Fin 3) * 16 ≤ (i 1).val ∧ (i 1).val < win1_3.index t (1 : Fin 3) * 16 + 16
    have : win1_3.index t (1 : Fin 3) = 0 := e3.2.1
    omega
  | ⟨2, _⟩ =>
    show win1_3.index t (2 : Fin 3) * 64 ≤ (i 2).val ∧ (i 2).val < win1_3.index t (2 : Fin 3) * 64 + 64
    have : win1_3.index t (2 : Fin 3) = 0 := e3.2.2
    omega

/-- THE ARRAY after the pipeline. -/
theorem final1_3 (c : Dev nD) : (dat1 V c).arrAt 3 cfg1.N = partial3 (V c main_v3) (V c main_arg4) :=
  (dat1 V c).arrAt_eq_of_cover 3 _ (flushed1_3_eq V c) cover1_3

/-! ## Output window 4: the partial products with the [401408, 128] weights -/

/-- The zero block the first point of a half stores, at an index. -/
theorem k1_pay3_apply (i : Fin 16) (p : Fin 128) : k1_pay3 (F := Ideal) (ix3 (0 : Fin 1) i p) = 0 := by
  show (shapeCast S1x16x128 (broadcast S16x128 (Ideal.ofBits .f32 0x00000000#32)) shapeCasts_S16x128_S1x16x128 : FVec Ideal S1x16x128 .f32) (ix3 (0 : Fin 1) i p) = 0
  rw [shapeCast_ab_1ab_apply, broadcast_apply, Ideal.ofBits_zero_f32]

/-- Entry (i, p) of what the body stores: what the block held, plus row i of the activations' column block times
    column p of the weights' row block. -/
theorem k1_pay5_apply (v0 : FVec Ideal S16x12544 .bf16) (v2 : FVec Ideal S12544x128 .f32) (v11 : FVec Ideal S1x16x128 .f32) (i : Fin 16) (p : Fin 128) :
    k1_pay5 (F := Ideal) v0 v2 v11 (ix3 (0 : Fin 1) i p) = v11 (ix3 (0 : Fin 1) i p) + ∑ j : Fin 12544, v0 (ix2 i j) * v2 (ix2 j p) := by
  have hsum : FloatOps.matmul dot_S16x12544_S12544x128_S16x128_1_0_0_1_n_n none
        (shapeCast S16x12544 v0 shapeCasts_S16x12544_S16x12544 : FVec Ideal S16x12544 .bf16)
        (truncf (F := Ideal) .bf16 v2 bitsLt_bf16_f32) (constant (F := Ideal) S16x128 .f32 0x00000000#32) (ix2 i p)
      = ∑ j : Fin 12544, v0 (ix2 i j) * v2 (ix2 j p) := by
    refine (Cert.ZeroAccDots.rows_columns dot_S16x12544_S12544x128_S16x128_1_0_0_1_n_n rfl rfl rfl rfl rfl rfl rfl rfl none _ _ i p).trans ?_
    refine Finset.sum_congr rfl fun j _ => ?_
    rw [truncf_apply, shapeCast_self]
  show (shapeCast S1x16x128 (addf (shapeCast S16x128 v11 shapeCasts_S1x16x128_S16x128 : FVec Ideal S16x128 .f32)
      (FloatOps.matmul dot_S16x12544_S12544x128_S16x128_1_0_0_1_n_n none
        (shapeCast S16x12544 v0 shapeCasts_S16x12544_S16x12544 : FVec Ideal S16x12544 .bf16)
        (truncf (F := Ideal) .bf16 v2 bitsLt_bf16_f32) (constant (F := Ideal) S16x128 .f32 0x00000000#32))) shapeCasts_S16x128_S1x16x128 : FVec Ideal S1x16x128 .f32) (ix3 (0 : Fin 1) i p) = _
  rw [shapeCast_ab_1ab_apply, addf_apply, shapeCast_1ab_ab_apply, hsum]

/-- The product of column block `n` of the activations with row block `n` of the weights, at (i, p): the term grid point
    `n` adds. -/
def blockTerm4 (A : S16x401408.Idx → Elt Ideal .bf16) (Wt : S401408x128.Idx → Elt Ideal .f32) (i : Fin 16) (p : Fin 128) (n : ℕ) : EReal :=
  if h : n < 32 then ∑ j : Fin 12544, A (ix2 i (⟨n * 12544 + j.val, by have := j.isLt; omega⟩ : Fin 401408)) * Wt (ix2 (⟨n * 12544 + j.val, by have := j.isLt; omega⟩ : Fin 401408) p) else 0

/-- One point's step: the body turns a block holding `prev` into `prev` plus the point's term. -/
theorem step4 (c : Dev nD) (t : Fin cfg1.N) (prev : FVec Ideal S1x16x128 .f32) (i : Fin 16) (p : Fin 128) :
    k1_pay5 (F := Ideal) (iblk1 V c 0 t) (iblk1 V c 2 t) prev (ix3 (0 : Fin 1) i p)
      = prev (ix3 (0 : Fin 1) i p) + blockTerm4 (V c main_v3) (V c main_arg6) i p t.val := by
  have hN : t.val < 32 := lt_of_lt_of_eq t.isLt (show cfg1.N = 32 from N_1)
  obtain ⟨e00, e01, e10, e11, e20, e21, -, -⟩ := idx_facts1 t
  refine (k1_pay5_apply (iblk1 V c 0 t) (iblk1 V c 2 t) prev i p).trans ?_
  unfold blockTerm4
  rw [dif_pos hN]
  have h0 : ∀ j : Fin 12544, ((cfg1.win 0).blk t).view.emb (ix2 i j) = ix2 i (⟨t.val * 12544 + j.val, by have := j.isLt; omega⟩ : Fin 401408) := fun j => by
    funext a; apply Fin.ext
    match a with
    | ⟨0, _⟩ => show win1_0.index t (0 : Fin 2) * 16 + 1 * i.val = i.val; omega
    | ⟨1, _⟩ => show win1_0.index t (1 : Fin 2) * 12544 + 1 * j.val = t.val * 12544 + j.val; omega
  have h1 : ∀ j : Fin 12544, ((cfg1.win 2).blk t).view.emb (ix2 j p) = ix2 (⟨t.val * 12544 + j.val, by have := j.isLt; omega⟩ : Fin 401408) p := fun j => by
    funext a; apply Fin.ext
    match a with
    | ⟨0, _⟩ => show win1_2.index t (0 : Fin 2) * 12544 + 1 * j.val = t.val * 12544 + j.val; omega
    | ⟨1, _⟩ => show win1_2.index t (1 : Fin 2) * 128 + 1 * p.val = p.val; omega
  have r0 : ∀ j : Fin 12544, iblk1 V c 0 t (ix2 i j) = V c main_v3 (ix2 i (⟨t.val * 12544 + j.val, by have := j.isLt; omega⟩ : Fin 401408)) :=
    fun j => congrArg (V c main_v3) (h0 j)
  have r1 : ∀ j : Fin 12544, iblk1 V c 2 t (ix2 j p) = V c main_arg6 (ix2 (⟨t.val * 12544 + j.val, by have := j.isLt; omega⟩ : Fin 401408) p) :=
    fun j => congrArg (V c main_arg6) (h1 j)
  exact congrArg (prev (ix3 (0 : Fin 1) i p) + ·) (Finset.sum_congr rfl fun j _ => congrArg₂ (· * ·) (r0 j) (r1 j))

/-- What the output block holds after point `n`: the terms since the first point of its half. -/
theorem acc4 (c : Dev nD) (i : Fin 16) (p : Fin 128) : ∀ (n : ℕ) (hn : n < cfg1.N),
    (outsAt1 V c n hn).2 (ix3 (0 : Fin 1) i p) = Cert.LibResetSum.running 16 (blockTerm4 (V c main_v3) (V c main_arg6) i p) n
  | 0, hn => by
    refine (congrArg (fun z => z.2 (ix3 (0 : Fin 1) i p)) (outsAt1_first V c ⟨0, hn⟩ (Nat.zero_mod _))).trans ?_
    refine (step4 V c ⟨0, hn⟩ _ i p).trans ?_
    rw [k1_pay3_apply, zero_add]; rfl
  | n + 1, hn => by
    by_cases h : (n + 1) % 16 = 0
    · refine (congrArg (fun z => z.2 (ix3 (0 : Fin 1) i p)) (outsAt1_first V c ⟨n + 1, hn⟩ h)).trans ?_
      refine (step4 V c ⟨n + 1, hn⟩ _ i p).trans ?_
      rw [k1_pay3_apply, zero_add, Cert.LibResetSum.running_reset 16 _ n h]
    · refine (congrArg (fun z => z.2 (ix3 (0 : Fin 1) i p)) (outsAt1_next V c ⟨n + 1, hn⟩ h)).trans ?_
      refine (step4 V c ⟨n + 1, hn⟩ _ i p).trans ?_
      rw [Cert.LibResetSum.running_step 16 _ n h]
      exact congrArg (· + _) (acc4 c i p n (Nat.lt_of_succ_lt hn))

/-- The array the pipeline leaves: at (h, i, p) the sum of half h's sixteen block terms. -/
def partial4 (A : S16x401408.Idx → Elt Ideal .bf16) (Wt : S401408x128.Idx → Elt Ideal .f32) : S2x16x128.Idx → Elt Ideal .f32 :=
  fun idx => ∑ k : Fin 16, blockTerm4 A Wt (idx 1) (idx 2) (16 * (idx 0).val + k.val)

/-- WHAT A HALF'S LAST POINT WRITES BACK is its block of `partial4`. -/
theorem flushed1_4_eq (c : Dev nD) (t : Fin cfg1.N) (hf : (cfg1.win 4).flush t = true) :
    (dat1 V c).flushed 4 t = ((cfg1.win 4).blk t).view.read (Elt Ideal) (partial4 (V c main_v3) (V c main_arg6)) := by
  have hN : t.val < 32 := lt_of_lt_of_eq t.isLt (show cfg1.N = 32 from N_1)
  have h15 : t.val % 16 = 15 := (flush1_4 t).mp hf
  obtain ⟨-, -, -, -, -, -, e3, e4⟩ := idx_facts1 t
  show (cfg1.win 4).cut (grid1.coords t) ((dat1 V c).after 4 t) = _
  rw [after1_4]
  funext j
  obtain ⟨u, i, p, rfl⟩ : ∃ (u : Fin 1) (i : Fin 16) (p : Fin 128), j = ix3 u i p := ⟨j 0, j 1, j 2, eq_ix3 j⟩
  obtain rfl : u = 0 := Subsingleton.elim _ _
  show (outsAt1 V c t.val t.isLt).2 (ix3 (0 : Fin 1) i p) = _
  rw [acc4 V c i p t.val t.isLt, View.read_apply]
  have hemb : ((cfg1.win 4).blk t).view.emb (ix3 (0 : Fin 1) i p) = ix3 (⟨t.val / 16, by omega⟩ : Fin 2) i p := by
    funext a; apply Fin.ext
    match a with
    | ⟨0, _⟩ => show win1_4.index t (0 : Fin 3) * 1 + 1 * 0 = t.val / 16; omega
    | ⟨1, _⟩ => show win1_4.index t (1 : Fin 3) * 16 + 1 * i.val = i.val; omega
    | ⟨2, _⟩ => show win1_4.index t (2 : Fin 3) * 128 + 1 * p.val = p.val; omega
  rw [hemb]
  unfold partial4
  have hlast := Cert.LibResetSum.running_last 16 (by decide) (blockTerm4 (V c main_v3) (V c main_arg6) i p) (t.val / 16)
  have ht : 16 * (t.val / 16) + (16 - 1) = t.val := by omega
  rw [ht] at hlast
  exact hlast

/-- An index of the array is in point `t`'s block iff each coordinate is in the block's range on its axis. -/
theorem mem_blk1_4 (t : Fin cfg1.N) (i : S2x16x128.Idx) :
    i ∈ ((cfg1.win 4).blk t).view.set ↔ ∀ a : Fin 3, win1_4.index t a * S1x16x128.size a ≤ (i a).val ∧ (i a).val < win1_4.index t a * S1x16x128.size a + S1x16x128.size a := by
  show i ∈ ((View.whole main_v4_1).slice (win1_4.rect t)).set ↔ _
  rw [View.set_slice_whole, Rect.mem_set_unit]
  exact Iff.rfl

/-- Every index of the array is in the block its half's last point writes back. -/
theorem cover1_4 (i : S2x16x128.Idx) : ∃ t : Fin cfg1.N, (cfg1.win 4).flush t = true ∧ i ∈ ((cfg1.win 4).blk t).view.set := by
  have hi0 : (i 0).val < 2 := (i 0).isLt
  have hi1 : (i 1).val < 16 := (i 1).isLt
  have hi2 : (i 2).val < 128 := (i 2).isLt
  have hN : cfg1.N = 32 := N_1
  let t : Fin cfg1.N := ⟨16 * (i 0).val + 15, by rw [hN]; omega⟩
  obtain ⟨-, -, -, -, -, -, e3, e4⟩ := idx_facts1 t
  refine ⟨t, (flush1_4 t).mpr (by show (16 * (i 0).val + 15) % 16 = 15; omega), ?_⟩
  rw [mem_blk1_4]
  have ht : (16 * (i 0).val + 15) / 16 = (i 0).val := by omega
  intro a
  match a with
  | ⟨0, _⟩ =>
    show win1_4.index t (0 : Fin 3) * 1 ≤ (i 0).val ∧ (i 0).val < win1_4.index t (0 : Fin 3) * 1 + 1
    have : win1_4.index t (0 : Fin 3) = (16 * (i 0).val + 15) / 16 := e4.1
    omega
  | ⟨1, _⟩ =>
    show win1_4.index t (1 : Fin 3) * 16 ≤ (i 1).val ∧ (i 1).val < win1_4.index t (1 : Fin 3) * 16 + 16
    have : win1_4.index t (1 : Fin 3) = 0 := e4.2.1
    omega
  | ⟨2, _⟩ =>
    show win1_4.index t (2 : Fin 3) * 128 ≤ (i 2).val ∧ (i 2).val < win1_4.index t (2 : Fin 3) * 128 + 128
    have : win1_4.index t (2 : Fin 3) = 0 := e4.2.2
    omega

/-- THE ARRAY after the pipeline. -/
theorem final1_4 (c : Dev nD) : (dat1 V c).arrAt 4 cfg1.N = partial4 (V c main_v3) (V c main_arg6) :=
  (dat1 V c).arrAt_eq_of_cover 4 _ (flushed1_4_eq V c) cover1_4

end Cert.KernelIdeal.HandValue1

end
-- ==== Proof.Math.Reshapes.lean ====
/-
  The kernel program's two reshapes read at an index.

  Row-major order is kept by a reshape.  [16, 224, 7, 512] read as [25088, 512]: position ((i*224 + h)*7 + w')*512 + c
  is position r*512 + c exactly when r = (i*224 + h)*7 + w', that is i = r/1568, h = r/7 % 224, w' = r % 7.
  [25088, 256] read as [16, 401408]: position i*401408 + K is position r*256 + d with r = i*1568 + K/256 and
  d = K % 256, since 401408 = 1568*256.
-/
import proofs.«171836_j33200097198456_2_alg».proof.Proof.Gen.KernelIdeal
import proofs.«171836_j33200097198456_2_alg».proof.Proof.Math.Defs
import Idealize.ShloMosaic.Lib.Pipeline.Value

noncomputable section

namespace Cert.Bridge

open Idealize.ShloMosaic Idealize.ShloMosaic.ValueIdx

/-- The features reshaped to a matrix of rows, at (r, c): the features at row r's three coordinates and channel c.
    Stated for any proof of the shape fact. -/
theorem featRows_apply' (x : FVec Ideal Cert.KernelIdeal.S16x224x7x512 .f32)
    (h : Cert.KernelIdeal.S16x224x7x512.ShapeCasts Cert.KernelIdeal.S25088x512) (r : Fin 25088) (c : Fin 512) :
    shapeCast Cert.KernelIdeal.S25088x512 x h (ix2 r c) = xrows x r c := by
  unfold xrows
  refine shapeCast_apply x h _ _ ?_
  rw [Shape.rowMajor_val_four, Shape.rowMajor_val_two]
  show ((r.val / 1568 * 224 + r.val / 7 % 224) * 7 + r.val % 7) * 512 + c.val = r.val * 512 + c.val
  have hr := r.isLt
  omega

/-- The same at the proof of the shape fact that the program's host operations carry. -/
theorem featRows_apply (x : FVec Ideal Cert.KernelIdeal.S16x224x7x512 .f32) (r : Fin 25088) (c : Fin 512) :
    shapeCast Cert.KernelIdeal.S25088x512 x Cert.KernelIdeal.Gen.shapeCasts_S16x224x7x512_S25088x512 (ix2 r c)
      = xrows x r c :=
  featRows_apply' x _ r c

/-- The hidden activations [25088, 256] reshaped to [16, 401408], at (i, K): the operand at row i*1568 + K/256 and
    column K % 256.  Stated for any proof of the shape fact. -/
theorem flatten_apply' (y : FVec Ideal Cert.KernelIdeal.S25088x256 .bf16)
    (h : Cert.KernelIdeal.S25088x256.ShapeCasts Cert.KernelIdeal.S16x401408) (i : Fin 16) (K : Fin 401408) :
    shapeCast Cert.KernelIdeal.S16x401408 y h (ix2 i K)
      = y (ix2 (⟨i.val*1568 + K.val/256, by omega⟩ : Fin 25088) (⟨K.val % 256, by omega⟩ : Fin 256)) := by
  refine shapeCast_apply y h _ _ ?_
  rw [Shape.rowMajor_val_two, Shape.rowMajor_val_two]
  show (i.val * 1568 + K.val / 256) * 256 + K.val % 256 = i.val * 401408 + K.val
  omega

/-- The same at the proof of the shape fact that the program's host operations carry. -/
theorem flatten_apply (y : FVec Ideal Cert.KernelIdeal.S25088x256 .bf16) (i : Fin 16) (K : Fin 401408) :
    shapeCast Cert.KernelIdeal.S16x401408 y Cert.KernelIdeal.Gen.shapeCasts_S25088x256_S16x401408 (ix2 i K)
      = y (ix2 (⟨i.val*1568 + K.val/256, by omega⟩ : Fin 25088) (⟨K.val % 256, by omega⟩ : Fin 256)) :=
  flatten_apply' y _ i K

end Cert.Bridge
-- ==== Proof.Math.KernelFlat.lean ====
/-
  The kernel program's flattened hidden activations read at an index.

  The kernel computes the hidden activations from the features already flattened to rows and the weights already
  changed to bf16, as an array [25088, 256], and then reshapes it to [16, 401408].  Row-major order is kept by both
  reshapes and a change of float format is the identity on extended reals, so entry (i, K) of the result is the
  hidden activation of row i*1568 + K/256 of the features at column K % 256: the same entry that the reference's
  flattened activations hold.

  The arrays enter as variables with their defining equations, so that a caller supplies each equation as a fact
  about its own memory and nothing here depends on where the arrays come from.
-/
import proofs.«171836_j33200097198456_2_alg».proof.Proof.Math.Reshapes

noncomputable section

namespace Cert.Bridge

open Idealize.ShloMosaic Idealize.ShloMosaic.ValueIdx
open scoped BigOperators

/-- If X0 is the features flattened to rows, Wt the weights with their format changed, Y the array of hidden
    activations of X0, Wt and the bias, and A the reshape of Y to [16, 401408], then A at (i, K) is the flattened
    hidden activation of the features, the weights and the bias at (i, K). -/
theorem kernelFlat_apply
    (x : FVec Ideal Cert.KernelIdeal.S16x224x7x512 .f32) (w : FVec Ideal Cert.KernelIdeal.S512x256 .f32)
    (b : FVec Ideal Cert.KernelIdeal.S256 .f32)
    (sc1 : Cert.KernelIdeal.S16x224x7x512.ShapeCasts Cert.KernelIdeal.S25088x512)
    (hbits : FTy.bits .bf16 < FTy.bits .f32)
    (sc2 : Cert.KernelIdeal.S25088x256.ShapeCasts Cert.KernelIdeal.S16x401408)
    (X0 : FVec Ideal Cert.KernelIdeal.S25088x512 .f32) (Wt : FVec Ideal Cert.KernelIdeal.S512x256 .bf16)
    (b' : FVec Ideal Cert.KernelIdeal.S256 .f32) (Y : FVec Ideal Cert.KernelIdeal.S25088x256 .bf16)
    (A : FVec Ideal Cert.KernelIdeal.S16x401408 .bf16)
    (hX : X0 = shapeCast Cert.KernelIdeal.S25088x512 x sc1) (hW : Wt = truncf .bf16 w hbits) (hb : b' = b)
    (hY : Y = fun i => hiddenAt (fun r k => X0 (ix2 r k)) (fun k d => Wt (ix2 k d)) (fun d => b' (ix1 d)) (i 0) (i 1))
    (hA : A = shapeCast Cert.KernelIdeal.S16x401408 Y sc2) (i : Fin 16) (K : Fin 401408) :
    A (ix2 i K) = flatAct x (fun c d => w (ix2 c d)) (fun d => b (ix1 d)) i K := by
  subst hb hA
  refine (flatten_apply' Y sc2 i K).trans ?_
  refine (congrFun hY _).trans ?_
  subst hX hW
  unfold flatAct
  exact congrArg (fun X => hiddenAt X (fun c d => w (ix2 c d)) (fun d => b' (ix1 d))
      (⟨i.val*1568 + K.val/256, by omega⟩ : Fin 25088) (⟨K.val % 256, by omega⟩ : Fin 256))
    (funext fun r => funext fun k => featRows_apply' x sc1 r k)

end Cert.Bridge
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.Math.Regroup.lean ====
/-
  The contraction axis of the two big products, regrouped as the kernel walks it.

  401408 = 2 * 16 * 12544: the axis is cut into two halves, each half into sixteen tiles, each tile into 12544
  consecutive columns, and column K = (16*h + k)*12544 + j is position j of tile k of half h.  A sum over the whole
  axis, in any additive commutative monoid, is therefore the sum over the halves of the sums over their tiles of the
  sums over each tile's columns.
-/
import proofs.«171836_j33200097198456_2_alg».proof.Proof.LibBlockSplit

open scoped BigOperators

namespace Cert.Bridge

/-- A sum over the 401408 columns is the sum over the 2 halves, the 16 tiles of a half and the 12544 columns of a
    tile, column (16*h + k)*12544 + j being position j of tile k of half h. -/
theorem sum_halves_tiles {M : Type*} [AddCommMonoid M] (f : Fin 401408 → M) :
    ∑ K : Fin 401408, f K
      = ∑ h : Fin 2, ∑ k : Fin 16, ∑ j : Fin 12544, f ⟨(16*h.val + k.val)*12544 + j.val, by omega⟩ := by
  rw [Cert.Lib.sum_blocks 32 12544 401408 rfl f
    (fun b j => ⟨12544 * b.val + j.val, by omega⟩) (fun _ _ => rfl)]
  rw [Cert.Lib.sum_blocks 2 16 32 rfl
    (fun b : Fin 32 => ∑ j : Fin 12544, f ⟨12544 * b.val + j.val, by omega⟩)
    (fun h k => ⟨16 * h.val + k.val, by omega⟩) (fun _ _ => rfl)]
  refine Finset.sum_congr rfl fun h _ => Finset.sum_congr rfl fun k _ => Finset.sum_congr rfl fun j _ =>
    congrArg f (Fin.ext ?_)
  show 12544 * (16 * h.val + k.val) + j.val = (16 * h.val + k.val) * 12544 + j.val
  omega

end Cert.Bridge
-- ==== Proof.Math.PartialSums.lean ====
/-
  Two partial sums against the whole product.

  For an array a [16, 401408] and weights W [401408, n], the product a·W at (i, p) is the sum over the 401408 columns
  K of a(i, K)·W(K, p).  Cut the columns into 2 halves of 16 tiles of 12544 columns.  If a partial-sums array
  P [2, 16, n] holds, at (h, i, p), the sum over half h's tiles and each tile's columns of the same products, then adding
  the two halves from zero gives the whole product: addition of extended reals is commutative and associative, so only
  the grouping differs, and no finiteness is asked.
-/
import proofs.«171836_j33200097198456_2_alg».proof.Proof.LibPlainDot
import proofs.«171836_j33200097198456_2_alg».proof.Proof.Math.Regroup
import Idealize.ShloMosaic.Lib.IdealHost

noncomputable section

namespace Cert.Bridge

open Idealize.ShloMosaic Idealize.ShloMosaic.ValueIdx
open scoped BigOperators

/-- The host's sum over the leading axis of a [2, 16, n] array, started from the zero scalar, at (i, p): the two
    halves' entries at (i, p) added. -/
theorem halves_sum_apply {n : ℕ} (P : FVec Ideal ⟨3, ![2, 16, n]⟩ .f32)
    (h' : (⟨3, ![2, 16, n]⟩ : Shape).ReducesTo [0] ⟨2, ![16, n]⟩) (hu : 0 < (⟨0, ![]⟩ : Shape).numel)
    (i : Fin 16) (p : Fin n) :
    Host.reduceAdd (F := Ideal) P (constant (F := Ideal) ⟨0, ![]⟩ .f32 0x00000000#32) h' hu (ix2 i p)
      = ∑ h : Fin 2, P (ix3 h i p) := by
  have hR : (⟨3, ![2, 16, n]⟩ : Shape).Reduces [0] ⟨2, ![16, n]⟩ := ⟨h'.1, Nat.two_pos, h'.2⟩
  show Ideal.hostReduceAdd h' P (Ideal.ofBits .f32 0x00000000#32) (ix2 i p) = _
  rw [Ideal.hostReduceAdd_single h' hR, Ideal.ofBits_zero_f32, zero_add]
  show ∑ k : Fin 2, P (hR.lift (ix2 i p) k) = _
  refine Finset.sum_congr rfl fun k _ => congrArg P (funext fun a => Fin.ext ?_)
  match a with
  | ⟨0, _⟩ => rfl
  | ⟨1, _⟩ => rfl
  | ⟨2, _⟩ => rfl

/-- The host's product of a [16, 401408] array with [401408, n] weights (rows times columns, no batch axis), at
    (i, p): the sum over the columns K of a(i, K)·W(K, p). -/
theorem whole_product_apply {n : ℕ} (d : DotDims ⟨2, ![16, 401408]⟩ ⟨2, ![401408, n]⟩ ⟨2, ![16, n]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = 401408)
    (a : FVec Ideal ⟨2, ![16, 401408]⟩ .f32) (W : FVec Ideal ⟨2, ![401408, n]⟩ .f32) (i : Fin 16) (p : Fin n) :
    Host.dotGeneral (F := Ideal) d none a W (ix2 i p) = ∑ K : Fin 401408, a (ix2 i K) * W (ix2 K p) := by
  simp only [Host.dotGeneral]
  rw [Ideal.dotGeneral_apply]
  exact Cert.PlainDot.sum_eq d hlb hln hlc hrb hrn hrc hr hs a W i p

/-- THE REGROUPING: partial sums over the two halves' tiles, added from zero, are the whole product. -/
theorem partial_sums_eq {n : ℕ} (d : DotDims ⟨2, ![16, 401408]⟩ ⟨2, ![401408, n]⟩ ⟨2, ![16, n]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = 401408)
    (a : FVec Ideal ⟨2, ![16, 401408]⟩ .f32) (W : FVec Ideal ⟨2, ![401408, n]⟩ .f32)
    (P : FVec Ideal ⟨3, ![2, 16, n]⟩ .f32)
    (hP : ∀ (h : Fin 2) (i : Fin 16) (p : Fin n), P (ix3 h i p)
      = ∑ k : Fin 16, ∑ j : Fin 12544, a (ix2 i ⟨(16*h.val + k.val)*12544 + j.val, by omega⟩)
          * W (ix2 ⟨(16*h.val + k.val)*12544 + j.val, by omega⟩ p))
    (h' : (⟨3, ![2, 16, n]⟩ : Shape).ReducesTo [0] ⟨2, ![16, n]⟩) (hu : 0 < (⟨0, ![]⟩ : Shape).numel) :
    Host.reduceAdd (F := Ideal) P (constant (F := Ideal) ⟨0, ![]⟩ .f32 0x00000000#32) h' hu
      = Host.dotGeneral (F := Ideal) d none a W := by
  funext q
  obtain ⟨i, p, rfl⟩ : ∃ (i : Fin 16) (p : Fin n), q = ix2 i p := ⟨q 0, q 1, eq_ix2 q⟩
  refine (halves_sum_apply P h' hu i p).trans ?_
  refine Eq.trans ?_ (whole_product_apply d hlb hln hlc hrb hrn hrc hr hs a W i p).symm
  refine Eq.trans ?_ (sum_halves_tiles (fun K : Fin 401408 => a (ix2 i K) * W (ix2 K p))).symm
  exact Finset.sum_congr rfl fun h _ => hP h i p

end Cert.Bridge
-- ==== Proof.Math.ClsBbox.lean ====
/-
  The kernel program's two host sums against the reference's two big products.

  The kernel leaves, for the class scores and for the box regressors, a partial-sums array with one slab per half of
  the contraction axis; its host program adds the two slabs from zero.  The reference multiplies the flattened hidden
  activations by the whole weight matrix.  When each slab holds its half's tile sums of the same products, the two agree
  (the regrouping of the sum over the 401408 columns into halves, tiles and columns).
-/
import proofs.«171836_j33200097198456_2_alg».proof.Proof.Gen.KernelIdeal
import proofs.«171836_j33200097198456_2_alg».proof.Proof.Gen.ReferenceIdeal
import proofs.«171836_j33200097198456_2_alg».proof.Proof.Math.PartialSums

noncomputable section

namespace Cert.Bridge

open Idealize.ShloMosaic Idealize.ShloMosaic.ValueIdx
open scoped BigOperators

/-- The class scores: the two partial-sums slabs [2, 16, 64] added from zero are the product with the [401408, 64]
    weights. -/
theorem cls_eq (a : FVec Ideal Cert.ReferenceIdeal.S16x401408 .f32) (W : FVec Ideal Cert.ReferenceIdeal.S401408x64 .f32)
    (P : FVec Ideal Cert.KernelIdeal.S2x16x64 .f32)
    (hP : ∀ (h : Fin 2) (i : Fin 16) (p : Fin 64), P (ix3 h i p)
      = ∑ k : Fin 16, ∑ j : Fin 12544, a (ix2 i ⟨(16*h.val + k.val)*12544 + j.val, by omega⟩)
          * W (ix2 ⟨(16*h.val + k.val)*12544 + j.val, by omega⟩ p)) :
    Host.reduceAdd (F := Ideal) P (constant (F := Ideal) Cert.KernelIdeal.S_ .f32 0x00000000#32)
        Cert.KernelIdeal.Gen.reducesTo_S2x16x64_S16x64_d0 Cert.KernelIdeal.Gen.h_S_
      = Host.dotGeneral (F := Ideal) Cert.ReferenceIdeal.dot_S16x401408_S401408x64_S16x64_1_0_0_1_n_n none a W :=
  partial_sums_eq (n := 64) Cert.ReferenceIdeal.dot_S16x401408_S401408x64_S16x64_1_0_0_1_n_n
    rfl rfl rfl rfl rfl rfl rfl rfl a W P hP _ _

/-- The box regressors: the two partial-sums slabs [2, 16, 128] added from zero are the product with the
    [401408, 128] weights. -/
theorem bbox_eq (a : FVec Ideal Cert.ReferenceIdeal.S16x401408 .f32) (W : FVec Ideal Cert.ReferenceIdeal.S401408x128 .f32)
    (P : FVec Ideal Cert.KernelIdeal.S2x16x128 .f32)
    (hP : ∀ (h : Fin 2) (i : Fin 16) (p : Fin 128), P (ix3 h i p)
      = ∑ k : Fin 16, ∑ j : Fin 12544, a (ix2 i ⟨(16*h.val + k.val)*12544 + j.val, by omega⟩)
          * W (ix2 ⟨(16*h.val + k.val)*12544 + j.val, by omega⟩ p)) :
    Host.reduceAdd (F := Ideal) P (constant (F := Ideal) Cert.KernelIdeal.S_ .f32 0x00000000#32)
        Cert.KernelIdeal.Gen.reducesTo_S2x16x128_S16x128_d0 Cert.KernelIdeal.Gen.h_S_
      = Host.dotGeneral (F := Ideal) Cert.ReferenceIdeal.dot_S16x401408_S401408x128_S16x128_1_0_0_1_n_n none a W :=
  partial_sums_eq (n := 128) Cert.ReferenceIdeal.dot_S16x401408_S401408x128_S16x128_1_0_0_1_n_n
    rfl rfl rfl rfl rfl rfl rfl rfl a W P hP _ _

end Cert.Bridge
-- ==== Proof.KI.Logits.lean ====
/-
  The kernel program's two logit arrays against the reference's.

  After the second pipeline the host adds, for the class scores and for the box regressors, the two halves' partial
  sums from zero.  Each half's slab holds, at (i, p), the sum over the half's sixteen tiles and each tile's 12544
  columns K of the flattened hidden activations at (i, K) times the weights at (K, p).  The flattened hidden
  activations the second pipeline finds are the first pipeline's result reshaped, and entry (i, K) of them is the
  reference's: the relu of row i*1568 + K/256 of the features times column K % 256 of the convolution weights plus
  the bias.  The weights are as launched.  So the host's sums are the reference's two big products of its flattened
  hidden activations with the weight matrices (the regrouping of the sum over the 401408 columns).
-/
import proofs.«171836_j33200097198456_2_alg».proof.Proof.KI.Between
import proofs.«171836_j33200097198456_2_alg».proof.Proof.KI.Value0
import proofs.«171836_j33200097198456_2_alg».proof.Proof.KI.Value1
import proofs.«171836_j33200097198456_2_alg».proof.Proof.Math.KernelFlat
import proofs.«171836_j33200097198456_2_alg».proof.Proof.Math.RefHidden
import proofs.«171836_j33200097198456_2_alg».proof.Proof.Math.ClsBbox

set_option maxRecDepth 16384

noncomputable section

namespace Cert.KernelIdeal.HandLogits

open Idealize.ShloMosaic Idealize.ShloMosaic.TcCoe Idealize.SL.Sem
open Idealize.ShloMosaic.ValueIdx
open Cert.KernelIdeal Cert.KernelIdeal.Gen Cert.KernelIdeal.Hand Cert.KernelIdeal.HandValue Cert.KernelIdeal.HandValue1
open scoped BigOperators

variable (m : (ℓ : Loc nD τ sig) → Buf (Elt Ideal) ℓ) (ρ : Dev nD → PrngReg)

/-- The flattened hidden activations the second pipeline finds, at (i, K), are the reference's at (i, K). -/
theorem acts_apply (c : Dev nD) (i : Fin 16) (K : Fin 401408) :
    (U3 m ρ c main_v3 : S16x401408.Idx → EReal) (ix2 i K)
      = Cert.Bridge.refFlat (m ((c : Thread nD τ).loc main_arg0)) (m ((c : Thread nD τ).loc main_arg2))
          (m ((c : Thread nD τ).loc main_arg3)) (ix2 i K) := by
  refine (Cert.Bridge.kernelFlat_apply (m ((c : Thread nD τ).loc main_arg0)) (m ((c : Thread nD τ).loc main_arg2))
    (m ((c : Thread nD τ).loc main_arg3))
    shapeCasts_S16x224x7x512_S25088x512 bitsLt_bf16_f32 shapeCasts_S25088x256_S16x401408
    (U1 m ρ c main_v0) (U1 m ρ c main_v1) (U1 m ρ c main_arg3) (W2 m ρ c (Proc.devRef .tc main_v2)) (U3 m ρ c main_v3)
    (U1_v0 m ρ c) (U1_v1 m ρ c) (U1_arg3 m ρ c) ((W2_arr m ρ c 3).trans (final0 (U1 m ρ) c)) (U3_v3 m ρ c) i K).trans ?_
  exact (Cert.Bridge.refFlat_apply _ _ _ i K).symm

/-- The array that window 3 of the second pipeline leaves, at (h, i, p): the sum over half h's sixteen tiles and each
    tile's 12544 columns of the activations at (i, K) times the weights at (K, p), K = (16*h + k)*12544 + j. -/
theorem partial3_apply (A : S16x401408.Idx → EReal) (Wt : S401408x64.Idx → EReal) (h : Fin 2) (i : Fin 16) (p : Fin 64) :
    partial3 A Wt (ix3 h i p) = ∑ k : Fin 16, ∑ j : Fin 12544,
      A (ix2 i ⟨(16*h.val + k.val)*12544 + j.val, by omega⟩) * Wt (ix2 ⟨(16*h.val + k.val)*12544 + j.val, by omega⟩ p) := by
  unfold partial3
  show ∑ k : Fin 16, blockTerm3 A Wt i p (16 * h.val + k.val) = _
  refine Finset.sum_congr rfl fun k _ => ?_
  unfold blockTerm3
  exact dif_pos (show 16 * h.val + k.val < 32 by omega)

/-- THE CLASS SCORES: the two halves' partial sums that the second pipeline leaves, added from zero on the host, are the product
    of the reference's flattened hidden activations (of the features, the convolution weights and the bias as
    launched) with the weight matrix as launched. -/
theorem cls_final (c : Dev nD) :
    Host.reduceAdd (F := Ideal) (W4 m ρ c (Proc.devRef .tc main_v4_0)) (constant (F := Ideal) S_ .f32 0x00000000#32)
        reducesTo_S2x16x64_S16x64_d0 h_S_
      = Host.dotGeneral (F := Ideal) (φ₂ := .f32) Cert.ReferenceIdeal.dot_S16x401408_S401408x64_S16x64_1_0_0_1_n_n none
          (Cert.Bridge.refFlat (m ((c : Thread nD τ).loc main_arg0)) (m ((c : Thread nD τ).loc main_arg2))
            (m ((c : Thread nD τ).loc main_arg3)))
          (m ((c : Thread nD τ).loc main_arg4)) := by
  have hP : (W4 m ρ c (Proc.devRef .tc main_v4_0) : S2x16x64.Idx → EReal)
      = partial3 (U3 m ρ c main_v3) (U3 m ρ c main_arg4) := (W4_arr m ρ c 3).trans (final1_3 (U3 m ρ) c)
  refine Cert.Bridge.cls_eq _ _ _ fun h i p => ?_
  refine (congrFun hP (ix3 h i p)).trans ?_
  refine (partial3_apply _ _ h i p).trans ?_
  refine Finset.sum_congr rfl fun k _ => Finset.sum_congr rfl fun j _ => ?_
  exact congrArg₂ (· * ·) (acts_apply m ρ c i _) (congrFun (U3_arg4 m ρ c) _)

/-- The array that window 4 of the second pipeline leaves, at (h, i, p): the sum over half h's sixteen tiles and each
    tile's 12544 columns of the activations at (i, K) times the weights at (K, p), K = (16*h + k)*12544 + j. -/
theorem partial4_apply (A : S16x401408.Idx → EReal) (Wt : S401408x128.Idx → EReal) (h : Fin 2) (i : Fin 16) (p : Fin 128) :
    partial4 A Wt (ix3 h i p) = ∑ k : Fin 16, ∑ j : Fin 12544,
      A (ix2 i ⟨(16*h.val + k.val)*12544 + j.val, by omega⟩) * Wt (ix2 ⟨(16*h.val + k.val)*12544 + j.val, by omega⟩ p) := by
  unfold partial4
  show ∑ k : Fin 16, blockTerm4 A Wt i p (16 * h.val + k.val) = _
  refine Finset.sum_congr rfl fun k _ => ?_
  unfold blockTerm4
  exact dif_pos (show 16 * h.val + k.val < 32 by omega)

/-- THE BOX REGRESSORS: the two halves' partial sums that the second pipeline leaves, added from zero on the host, are the product
    of the reference's flattened hidden activations (of the features, the convolution weights and the bias as
    launched) with the weight matrix as launched. -/
theorem bbox_final (c : Dev nD) :
    Host.reduceAdd (F := Ideal) (W4 m ρ c (Proc.devRef .tc main_v4_1)) (constant (F := Ideal) S_ .f32 0x00000000#32)
        reducesTo_S2x16x128_S16x128_d0 h_S_
      = Host.dotGeneral (F := Ideal) (φ₂ := .f32) Cert.ReferenceIdeal.dot_S16x401408_S401408x128_S16x128_1_0_0_1_n_n none
          (Cert.Bridge.refFlat (m ((c : Thread nD τ).loc main_arg0)) (m ((c : Thread nD τ).loc main_arg2))
            (m ((c : Thread nD τ).loc main_arg3)))
          (m ((c : Thread nD τ).loc main_arg6)) := by
  have hP : (W4 m ρ c (Proc.devRef .tc main_v4_1) : S2x16x128.Idx → EReal)
      = partial4 (U3 m ρ c main_v3) (U3 m ρ c main_arg6) := (W4_arr m ρ c 4).trans (final1_4 (U3 m ρ) c)
  refine Cert.Bridge.bbox_eq _ _ _ fun h i p => ?_
  refine (congrFun hP (ix3 h i p)).trans ?_
  refine (partial4_apply _ _ h i p).trans ?_
  refine Finset.sum_congr rfl fun k _ => Finset.sum_congr rfl fun j _ => ?_
  exact congrArg₂ (· * ·) (acts_apply m ρ c i _) (congrFun (U3_arg6 m ρ c) _)

end Cert.KernelIdeal.HandLogits

end
-- ==== Proof.KI.Result.lean ====
/-
  The two programs' results are one array. The kernel program's result buffer ends at the shared tail of its class scores,
  box regressors and regions; the reference's at the same tail of its own. The regions and the biases are the arguments as
  launched on both sides; the class scores and box regressors agree because the kernel's two half sums added are the
  reference's whole products of the same hidden activations.
-/
import proofs.«171836_j33200097198456_2_alg».proof.Proof.KI.Tail
import proofs.«171836_j33200097198456_2_alg».proof.Proof.KI.Logits

set_option maxRecDepth 16384

noncomputable section

namespace Cert.KernelIdeal.HandTail

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- The kernel program's class scores are the reference's, of the arguments as launched. -/
theorem cls_agree (c : Dev nD) : kerCls (W4 m ρ c)
    = Cert.Bridge.refCls (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  unfold kerCls Cert.Bridge.refCls
  rw [W4_main_arg5 m ρ c, Cert.KernelIdeal.HandLogits.cls_final m ρ c]

/-- Its box regressors likewise. -/
theorem bbox_agree (c : Dev nD) : kerBbox (W4 m ρ c)
    = Cert.Bridge.refBbox (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := by
  unfold kerBbox Cert.Bridge.refBbox
  rw [W4_main_arg7 m ρ c, Cert.KernelIdeal.HandLogits.bbox_final m ρ c]

/-- The kernel program's result buffer ends holding the reference's result, from memories agreeing on the arguments. -/
theorem result_eq (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    W9 m ρ c (Proc.devRef .tc main_v72) = Cert.ReferenceIdeal.Value.res_main_v73 (F := Ideal) m' c := by
  refine (after_tail (W4 m ρ c)).trans ?_
  rw [Cert.Bridge.ref_tail m' c, h0, h1, h2, h3, h4, h5, h6, h7, cls_agree m ρ c, bbox_agree m ρ c, W4_main_arg1 m ρ c]

end Cert.KernelIdeal.HandTail

end
-- ==== Proof.lean ====
/-
  The certificate's claims. The kernel program is two pipelines among host operations: the 1x1 convolution + bias + relu
  as one matrix product over 14 row blocks of the row-flattened features, and the two big products of the flattened hidden
  activations [16, 401408] with the class and box weights, K-blocked over a grid of 2 halves x 16 tiles of 12544 columns,
  each half accumulating its tiles into its own partial result; the halves are then added, the biases added, and a tail of
  host operations (softmax over the two halves of the class scores, box decoding, five columns joined) finishes. The
  reference does the convolution as one contraction on the 4-D features, flattens, and takes the two whole products.

  Frames: each kernel program's run is written over the library's several-pipeline launch (the first pipeline's body has
  one control case, the second two: a half's first point zeroes its output blocks, the later ones add to what the point
  before left); the reference's frame is its generated run. The idealization rewrote nothing.
  Equal results at the exact reading of floats: both programs' hidden activations are max (∑ c, x·w + b) 0 at the same
  row-major position; the kernel's two partial results added are the whole sums over K = 401408 regrouped as
  2 x 16 x 12544 (sums of extended reals regroup freely, no finiteness is used); the tails are one function of equal arrays.
-/
import proofs.«171836_j33200097198456_2_alg».proof.Defs
import proofs.«171836_j33200097198456_2_alg».proof.Proof.Gen.Kernel
import proofs.«171836_j33200097198456_2_alg».proof.Proof.Gen.KernelIdeal
import proofs.«171836_j33200097198456_2_alg».proof.Proof.Gen.ReferenceIdeal
import proofs.«171836_j33200097198456_2_alg».proof.Proof.Gen.Pre_finite_inputs
import proofs.«171836_j33200097198456_2_alg».proof.Proof.K.Run
import proofs.«171836_j33200097198456_2_alg».proof.Proof.KI.Run
import proofs.«171836_j33200097198456_2_alg».proof.Proof.KI.Result
import proofs.«171836_j33200097198456_2_alg».proof.Proof.RefImports
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: its run, the result dropped. -/
theorem frame_k : Cert.frame_Kernel := fun m ρ _ =>
  (θ_run Cert.Kernel.defs _ _).mono (fun _ h c => (h c).2) (Cert.Kernel.Hand.run (F := Bits) m ρ)

/-- The same of the idealized kernel program. -/
theorem frame_ki : Cert.frame_KernelIdeal := fun m ρ _ =>
  (θ_run Cert.KernelIdeal.defs _ _).mono (fun _ h c => (h c).2) (Cert.KernelIdeal.Hand.run (F := Ideal) m ρ)

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact reading of floats the kernel program's result buffer ends at the last boundary's contents, the
    reference's at its operations' term of the arguments, and from memories agreeing on the arguments these are one array. -/
theorem algebraic : Cert.algebraic_KernelIdeal_ReferenceIdeal := by
  intro m ρ m' ρ' _ hagree
  refine ⟨fun c => Cert.KernelIdeal.Hand.W9 m ρ c (Proc.devRef .tc Cert.KernelIdeal.main_v72), Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  exact (Cert.KernelIdeal.HandTail.result_eq m ρ c m' a0 a1 a2 a3 a4 a5 a6 a7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
